-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S128x2 .f32) (main_arg10 : FVec F S2 .f32) (main_v33 : IVec S_ 1) : IVec S_ 1 :=
  let main_v34 : FVec F S128x2 .f32 := Host.absf main_arg9
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x2 .f32) (main_arg10 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x1600000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x2 .f32) (main_arg10 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S5000x128 : Shape := ⟨2, ![5000, 128]⟩
abbrev S1650000x128 : Shape := ⟨2, ![1650000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S64x2 : Shape := ⟨2, ![64, 2]⟩
abbrev S1x2 : Shape := ⟨2, ![1, 2]⟩

abbrev nBuf : Space → Nat
  | .hbm => 121
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x2, .f32⟩
  | .hbm, ⟨10, _⟩ => ⟨S2, .f32⟩
  | .hbm, ⟨11, _⟩ => ⟨S50000, .i32⟩
  | .hbm, ⟨12, _⟩ => ⟨S1x1600000, .i32⟩
  | .hbm, ⟨13, _⟩ => ⟨S1600000, .i32⟩
  | .hbm, ⟨14, _⟩ => ⟨S1650000, .i32⟩
  | .hbm, ⟨15, _⟩ => ⟨S1x1600000, .i32⟩
  | .hbm, ⟨16, _⟩ => ⟨S1600000, .i32⟩
  | .hbm, ⟨17, _⟩ => ⟨S1650000, .i32⟩
  | .hbm, ⟨18, _⟩ => ⟨S_, .f32⟩
  | .hbm, ⟨19, _⟩ => ⟨S1650000, .f32⟩
  | .hbm, ⟨20, _⟩ => ⟨S_, .f32⟩
  | .hbm, ⟨21, _⟩ => ⟨S50000, .f32⟩
  | .hbm, ⟨22, _⟩ => ⟨S1650000x1, .i32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S1650000, .i32⟩
  | .hbm, ⟨27, _⟩ => ⟨S1650000, .i1⟩
  | .hbm, ⟨28, _⟩ => ⟨S_, .i32⟩
  | .hbm, ⟨29, _⟩ => ⟨S1650000, .i32⟩
  | .hbm, ⟨30, _⟩ => ⟨S1650000, .i32⟩
  | .hbm, ⟨31, _⟩ => ⟨S1650000, .i32⟩
  | .hbm, ⟨32, _⟩ => ⟨S1650000x1, .i32⟩
  | .hbm, ⟨33, _⟩ => ⟨S1650000, .f32⟩
  | .hbm, ⟨34, _⟩ => ⟨S_, .i32⟩
  | .hbm, ⟨35, _⟩ => ⟨S1650000, .i32⟩
  | .hbm, ⟨36, _⟩ => ⟨S1650000, .i1⟩
  | .hbm, ⟨37, _⟩ => ⟨S_, .i32⟩
  | .hbm, ⟨38, _⟩ => ⟨S1650000, .i32⟩
  | .hbm, ⟨39, _⟩ => ⟨S1650000, .i32⟩
  | .hbm, ⟨40, _⟩ => ⟨S1650000, .i32⟩
  | .hbm, ⟨41, _⟩ => ⟨S1650000x1, .i32⟩
  | .hbm, ⟨42, _⟩ => ⟨S1650000, .f32⟩
  | .hbm, ⟨43, _⟩ => ⟨S1650000, .f32⟩
  | .hbm, ⟨44, _⟩ => ⟨S50000x128, .f32⟩
  | .hbm, ⟨45, _⟩ => ⟨S_, .i32⟩
  | .hbm, ⟨46, _⟩ => ⟨S1650000, .i32⟩
  | .hbm, ⟨47, _⟩ => ⟨S1650000, .i1⟩
  | .hbm, ⟨48, _⟩ => ⟨S_, .i32⟩
  | .hbm, ⟨49, _⟩ => ⟨S1650000, .i32⟩
  | .hbm, ⟨50, _⟩ => ⟨S1650000, .i32⟩
  | .hbm, ⟨51, _⟩ => ⟨S1650000, .i32⟩
  | .hbm, ⟨52, _⟩ => ⟨S1650000x1, .i32⟩
  | .hbm, ⟨53, _⟩ => ⟨S1650000x128, .f32⟩
  | .hbm, ⟨54, _⟩ => ⟨S1650000x1, .f32⟩
  | .hbm, ⟨55, _⟩ => ⟨S1650000x128, .f32⟩
  | .hbm, ⟨56, _⟩ => ⟨S1650000x128, .f32⟩
  | .hbm, ⟨57, _⟩ => ⟨S_, .f32⟩
  | .hbm, ⟨58, _⟩ => ⟨S50000x128, .f32⟩
  | .hbm, ⟨59, _⟩ => ⟨S1650000x1, .i32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .i32⟩
  | .hbm, ⟨65, _⟩ => ⟨S1650000, .i32⟩
  | .hbm, ⟨66, _⟩ => ⟨S1650000, .i1⟩
  | .hbm, ⟨67, _⟩ => ⟨S_, .i32⟩
  | .hbm, ⟨68, _⟩ => ⟨S1650000, .i32⟩
  | .hbm, ⟨69, _⟩ => ⟨S1650000, .i32⟩
  | .hbm, ⟨70, _⟩ => ⟨S1650000, .i32⟩
  | .hbm, ⟨71, _⟩ => ⟨S1650000x1, .i32⟩
  | .hbm, ⟨72, _⟩ => ⟨S1650000x128, .f32⟩
  | .hbm, ⟨73, _⟩ => ⟨S1650000x1, .f32⟩
  | .hbm, ⟨74, _⟩ => ⟨S1650000x128, .f32⟩
  | .hbm, ⟨75, _⟩ => ⟨S1650000x128, .f32⟩
  | .hbm, ⟨76, _⟩ => ⟨S_, .f32⟩
  | .hbm, ⟨77, _⟩ => ⟨S50000x128, .f32⟩
  | .hbm, ⟨78, _⟩ => ⟨S1650000x1, .i32⟩
  | .hbm, ⟨79, _⟩ => ⟨S50000x128, .f32⟩
  | .hbm, ⟨80, _⟩ => ⟨S1x128, .f32⟩
  | .hbm, ⟨81, _⟩ => ⟨S50000x128, .f32⟩
  | .hbm, ⟨82, _⟩ => ⟨S50000x128, .f32⟩
  | .hbm, ⟨83, _⟩ => ⟨S_, .i32⟩
  | .hbm, ⟨84, _⟩ => ⟨S1650000, .i32⟩
  | .hbm, ⟨85, _⟩ => ⟨S1650000, .i1⟩
  | .hbm, ⟨86, _⟩ => ⟨S_, .i32⟩
  | .hbm, ⟨87, _⟩ => ⟨S1650000, .i32⟩
  | .hbm, ⟨88, _⟩ => ⟨S1650000, .i32⟩
  | .hbm, ⟨89, _⟩ => ⟨S1650000, .i32⟩
  | .hbm, ⟨90, _⟩ => ⟨S1650000x1, .i32⟩
  | .hbm, ⟨91, _⟩ => ⟨S1650000x128, .f32⟩
  | .hbm, ⟨92, _⟩ => ⟨S1650000x1, .f32⟩
  | .hbm, ⟨93, _⟩ => ⟨S1650000x128, .f32⟩
  | .hbm, ⟨94, _⟩ => ⟨S1650000x128, .f32⟩
  | .hbm, ⟨95, _⟩ => ⟨S_, .f32⟩
  | .hbm, ⟨96, _⟩ => ⟨S50000x128, .f32⟩
  | .hbm, ⟨97, _⟩ => ⟨S1650000x1, .i32⟩
  | .hbm, ⟨98, _⟩ => ⟨S50000x128, .f32⟩
  | .hbm, ⟨99, _⟩ => ⟨S1x128, .f32⟩
  | .hbm, ⟨100, _⟩ => ⟨S50000x128, .f32⟩
  | .hbm, ⟨101, _⟩ => ⟨S_, .f32⟩
  | .hbm, ⟨102, _⟩ => ⟨S64x128, .f32⟩
  | .hbm, ⟨103, _⟩ => ⟨S50000x1, .i32⟩
  | .hbm, ⟨104, _⟩ => ⟨S64x128, .f32⟩
  | .hbm, ⟨105, _⟩ => ⟨S_, .f32⟩
  | .hbm, ⟨106, _⟩ => ⟨S50000, .f32⟩
  | .hbm, ⟨107, _⟩ => ⟨S_, .f32⟩
  | .hbm, ⟨108, _⟩ => ⟨S64, .f32⟩
  | .hbm, ⟨109, _⟩ => ⟨S50000x1, .i32⟩
  | .hbm, ⟨110, _⟩ => ⟨S64, .f32⟩
  | .hbm, ⟨111, _⟩ => ⟨S_, .f32⟩
  | .hbm, ⟨112, _⟩ => ⟨S64, .f32⟩
  | .hbm, ⟨113, _⟩ => ⟨S64, .f32⟩
  | .hbm, ⟨114, _⟩ => ⟨S64x1, .f32⟩
  | .hbm, ⟨115, _⟩ => ⟨S64x128, .f32⟩
  | .hbm, ⟨116, _⟩ => ⟨S64x128, .f32⟩
  | .hbm, ⟨117, _⟩ => ⟨S64x2, .f32⟩
  | .hbm, ⟨118, _⟩ => ⟨S1x2, .f32⟩
  | .hbm, ⟨119, _⟩ => ⟨S64x2, .f32⟩
  | .hbm, ⟨120, _⟩ => ⟨S64x2, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_7 : Ref sig .tc := ⟨.hbm, 64, rfl⟩
abbrev main_v44 : Ref sig .tc := ⟨.hbm, 65, rfl⟩
abbrev main_v45 : Ref sig .tc := ⟨.hbm, 66, rfl⟩
abbrev main_c_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_10 : Ref sig .tc := ⟨.hbm, 83, rfl⟩
abbrev main_v60 : Ref sig .tc := ⟨.hbm, 84, rfl⟩
abbrev main_v61 : Ref sig .tc := ⟨.hbm, 85, rfl⟩
abbrev main_c_11 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_12 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_13 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_14 : Ref sig .tc := ⟨.hbm, 105, rfl⟩
abbrev main_v78 : Ref sig .tc := ⟨.hbm, 106, rfl⟩
abbrev main_cst_15 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_16 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x128_S128x128_S5000x128_1_0_0_1_n_n_wf : DotDims.WF S5000x128 S128x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x2_S64x2_1_0_0_1_n_n_wf : DotDims.WF S64x128 S128x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v58) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v72) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v73) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S64x2 : Shape := ⟨2, ![64, 2]⟩
abbrev S1x2 : Shape := ⟨2, ![1, 2]⟩

abbrev nBuf : Space → Nat
  | .hbm => 133
  | .vmem => 0
  | .smem => 0
  | _ => 0

abbrev hbmTy0_0 (i : Nat) : BufTy := match i % 128 with
  | 0 => ⟨S50000x128, .f32⟩
  | 1 => ⟨S2x1600000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x2, .f32⟩
  | 10 => ⟨S2, .f32⟩
  | 11 => ⟨S50000, .i32⟩
  | 12 => ⟨S1x1600000, .i32⟩
  | 13 => ⟨S1600000, .i32⟩
  | 14 => ⟨S1650000, .i32⟩
  | 15 => ⟨S1x1600000, .i32⟩
  | 16 => ⟨S1600000, .i32⟩
  | 17 => ⟨S1650000, .i32⟩
  | 18 => ⟨S_, .f32⟩
  | 19 => ⟨S1650000, .f32⟩
  | 20 => ⟨S_, .f32⟩
  | 21 => ⟨S50000, .f32⟩
  | 22 => ⟨S1650000x1, .i32⟩
  | 23 => ⟨S50000, .f32⟩
  | 24 => ⟨S50000, .f32⟩
  | 25 => ⟨S_, .i32⟩
  | 26 => ⟨S1650000, .i32⟩
  | 27 => ⟨S1650000, .i1⟩
  | 28 => ⟨S_, .i32⟩
  | 29 => ⟨S1650000, .i32⟩
  | 30 => ⟨S1650000, .i32⟩
  | 31 => ⟨S1650000, .i32⟩
  | 32 => ⟨S1650000x1, .i32⟩
  | 33 => ⟨S1650000, .f32⟩
  | 34 => ⟨S_, .i32⟩
  | 35 => ⟨S1650000, .i32⟩
  | 36 => ⟨S1650000, .i1⟩
  | 37 => ⟨S_, .i32⟩
  | 38 => ⟨S1650000, .i32⟩
  | 39 => ⟨S1650000, .i32⟩
  | 40 => ⟨S1650000, .i32⟩
  | 41 => ⟨S1650000x1, .i32⟩
  | 42 => ⟨S1650000, .f32⟩
  | 43 => ⟨S1650000, .f32⟩
  | 44 => ⟨S50000x128, .f32⟩
  | 45 => ⟨S_, .i32⟩
  | 46 => ⟨S1650000, .i32⟩
  | 47 => ⟨S1650000, .i1⟩
  | 48 => ⟨S_, .i32⟩
  | 49 => ⟨S1650000, .i32⟩
  | 50 => ⟨S1650000, .i32⟩
  | 51 => ⟨S1650000, .i32⟩
  | 52 => ⟨S1650000x1, .i32⟩
  | 53 => ⟨S1650000x128, .f32⟩
  | 54 => ⟨S1650000x1, .f32⟩
  | 55 => ⟨S1650000x128, .f32⟩
  | 56 => ⟨S1650000x128, .f32⟩
  | 57 => ⟨S_, .f32⟩
  | 58 => ⟨S50000x128, .f32⟩
  | 59 => ⟨S1650000x1, .i32⟩
  | 60 => ⟨S50000x128, .f32⟩
  | 61 => ⟨S1x128, .f32⟩
  | 62 => ⟨S50000x128, .f32⟩
  | 63 => ⟨S50000x128, .f32⟩
  | 64 => ⟨S_, .f32⟩
  | 65 => ⟨S50000x128, .f32⟩
  | 66 => ⟨S50000x128, .f32⟩
  | 67 => ⟨S50000x128, .f32⟩
  | 68 => ⟨S_, .i32⟩
  | 69 => ⟨S1650000, .i32⟩
  | 70 => ⟨S1650000, .i1⟩
  | 71 => ⟨S_, .i32⟩
  | 72 => ⟨S1650000, .i32⟩
  | 73 => ⟨S1650000, .i32⟩
  | 74 => ⟨S1650000, .i32⟩
  | 75 => ⟨S1650000x1, .i32⟩
  | 76 => ⟨S1650000x128, .f32⟩
  | 77 => ⟨S1650000x1, .f32⟩
  | 78 => ⟨S1650000x128, .f32⟩
  | 79 => ⟨S1650000x128, .f32⟩
  | 80 => ⟨S_, .f32⟩
  | 81 => ⟨S50000x128, .f32⟩
  | 82 => ⟨S1650000x1, .i32⟩
  | 83 => ⟨S50000x128, .f32⟩
  | 84 => ⟨S1x128, .f32⟩
  | 85 => ⟨S50000x128, .f32⟩
  | 86 => ⟨S50000x128, .f32⟩
  | 87 => ⟨S_, .f32⟩
  | 88 => ⟨S50000x128, .f32⟩
  | 89 => ⟨S50000x128, .f32⟩
  | 90 => ⟨S50000x128, .f32⟩
  | 91 => ⟨S_, .i32⟩
  | 92 => ⟨S1650000, .i32⟩
  | 93 => ⟨S1650000, .i1⟩
  | 94 => ⟨S_, .i32⟩
  | 95 => ⟨S1650000, .i32⟩
  | 96 => ⟨S1650000, .i32⟩
  | 97 => ⟨S1650000, .i32⟩
  | 98 => ⟨S1650000x1, .i32⟩
  | 99 => ⟨S1650000x128, .f32⟩
  | 100 => ⟨S1650000x1, .f32⟩
  | 101 => ⟨S1650000x128, .f32⟩
  | 102 => ⟨S1650000x128, .f32⟩
  | 103 => ⟨S_, .f32⟩
  | 104 => ⟨S50000x128, .f32⟩
  | 105 => ⟨S1650000x1, .i32⟩
  | 106 => ⟨S50000x128, .f32⟩
  | 107 => ⟨S1x128, .f32⟩
  | 108 => ⟨S50000x128, .f32⟩
  | 109 => ⟨S50000x128, .f32⟩
  | 110 => ⟨S_, .f32⟩
  | 111 => ⟨S50000x128, .f32⟩
  | 112 => ⟨S50000x128, .f32⟩
  | 113 => ⟨S_, .f32⟩
  | 114 => ⟨S64x128, .f32⟩
  | 115 => ⟨S50000x1, .i32⟩
  | 116 => ⟨S64x128, .f32⟩
  | 117 => ⟨S_, .f32⟩
  | 118 => ⟨S50000, .f32⟩
  | 119 => ⟨S_, .f32⟩
  | 120 => ⟨S64, .f32⟩
  | 121 => ⟨S50000x1, .i32⟩
  | 122 => ⟨S64, .f32⟩
  | 123 => ⟨S_, .f32⟩
  | 124 => ⟨S64, .f32⟩
  | 125 => ⟨S64, .f32⟩
  | 126 => ⟨S64x1, .f32⟩
  | 127 => ⟨S64x128, .f32⟩
  | _ => ⟨S50000x128, .f32⟩

abbrev hbmTy0_1 (i : Nat) : BufTy := match i % 128 with
  | 0 => ⟨S64x128, .f32⟩
  | 1 => ⟨S64x2, .f32⟩
  | 2 => ⟨S1x2, .f32⟩
  | 3 => ⟨S64x2, .f32⟩
  | 4 => ⟨S64x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call0_cst : Ref sig .tc := ⟨.hbm, 64, rfl⟩
abbrev main_call0_v0 : Ref sig .tc := ⟨.hbm, 65, rfl⟩
abbrev main_v44 : Ref sig .tc := ⟨.hbm, 66, rfl⟩
abbrev main_v45 : Ref sig .tc := ⟨.hbm, 67, rfl⟩
abbrev main_c_7 : Ref sig .tc := ⟨.hbm, 68, rfl⟩
abbrev main_v46 : Ref sig .tc := ⟨.hbm, 69, rfl⟩
abbrev main_v47 : Ref sig .tc := ⟨.hbm, 70, rfl⟩
abbrev main_c_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call1_cst : Ref sig .tc := ⟨.hbm, 87, rfl⟩
abbrev main_call1_v0 : Ref sig .tc := ⟨.hbm, 88, rfl⟩
abbrev main_v62 : Ref sig .tc := ⟨.hbm, 89, rfl⟩
abbrev main_v63 : Ref sig .tc := ⟨.hbm, 90, rfl⟩
abbrev main_c_10 : Ref sig .tc := ⟨.hbm, 91, rfl⟩
abbrev main_v64 : Ref sig .tc := ⟨.hbm, 92, rfl⟩
abbrev main_v65 : Ref sig .tc := ⟨.hbm, 93, rfl⟩
abbrev main_c_11 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_12 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_call2_cst : Ref sig .tc := ⟨.hbm, 110, rfl⟩
abbrev main_call2_v0 : Ref sig .tc := ⟨.hbm, 111, rfl⟩
abbrev main_v80 : Ref sig .tc := ⟨.hbm, 112, rfl⟩
abbrev main_cst_13 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_14 : Ref sig .tc := ⟨.hbm, 117, rfl⟩
abbrev main_v84 : Ref sig .tc := ⟨.hbm, 118, rfl⟩
abbrev main_cst_15 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_16 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x128_S50000x128_1_0_0_1_n_n_wf : DotDims.WF S50000x128 S128x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x2_S64x2_1_0_0_1_n_n_wf : DotDims.WF S64x128 S128x2 S64x2 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

class Facts : Prop extends Facts₀ where

variable [Facts]
-- ==== Proof.KernelRun.lean ====
/-
  The idealized kernel's run, with its result named.

  @main is eleven segments: five stretches of host operations and six tiled regions (three matrix products, three
  bias-and-ReLU passes). The buffer contents at each segment boundary are a fold from the launch memory: a host
  stretch applies its operations, a region replaces its arrays by what its write-backs leave. Every weakly fair
  execution terminates in a state whose unscoped buffers hold the last boundary's contents; read at the result
  buffer this names the program's result, and read at an argument it is the launch contents.
-/
import proofs.«173898_j40140764348924_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last boundary's
    contents and every argument array as launched. -/
theorem run : θ_run defs (onTc (τ := τ) (main (F := F))) ⟨m, fun _ => 0, ρ⟩ (fun r => ∀ c : Dev nD,
      r.2.mem ((c.tc : Thread nD τ).loc main_v90) = W11 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v90 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩)

end Cert.KernelIdeal.Whole

end
-- ==== Proof.LibHostKeeps.lean ====
/-
  A host stretch leaves alone every buffer none of its operations writes: the fold of the stretch over the memory, read
  at such a buffer, is the memory there. The tactic below closes that goal for a literal stretch and a literal buffer,
  one inequality of references per operation.
-/
import Idealize.ShloMosaic.Lib.StableHlo.Run

open Idealize.ShloMosaic

/-- Closes `StableHlo.after ops W b = W b` when no operation of the literal list `ops` writes the literal buffer `b`. -/
macro "host_keeps" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))
-- ==== Proof.Keeps.lean ====
/-
  What the later segments leave alone.

  @main's eleven segments each write only their own results: a host stretch the buffers its operations name as
  results, a region its output array. So an argument buffer holds its launch contents at every boundary, and the three
  arrays computed once from the edge list before the first region — the source indices, the destination indices and
  the per-edge normaliser — hold at every later boundary what they held when the first region was entered. Each
  statement below walks one buffer back across the segments between two boundaries, one inequality of references per
  operation or per region array.
-/
import proofs.«173898_j40140764348924_1_alg».proof.Proof.Gen.KernelIdeal.Frame
import proofs.«173898_j40140764348924_1_alg».proof.Proof.LibHostKeeps

set_option maxRecDepth 16384

noncomputable section

namespace Cert.KernelIdeal.Keeps

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-! ## The arguments, at the boundary where each is read -/

/-- Argument 0 is as launched when boundary 1 is reached: nothing before it writes the buffer. -/
theorem arg0_at_1 : W1 m ρ c (Proc.devRef .tc main_arg0) = m ((c : Thread nD τ).loc main_arg0) :=
  ((show W1 m ρ c (Proc.devRef .tc main_arg0) = W0 m ρ c (Proc.devRef .tc main_arg0) from by
      show StableHlo.after hostOps0 (W0 m ρ c) (Proc.devRef .tc main_arg0) = W0 m ρ c (Proc.devRef .tc main_arg0)
      host_keeps hostOps0)).trans
    ((rfl : W0 m ρ c (Proc.devRef .tc main_arg0) = m ((c : Thread nD τ).loc main_arg0)))

/-- Argument 3 is as launched when boundary 1 is reached: nothing before it writes the buffer. -/
theorem arg3_at_1 : W1 m ρ c (Proc.devRef .tc main_arg3) = m ((c : Thread nD τ).loc main_arg3) :=
  ((show W1 m ρ c (Proc.devRef .tc main_arg3) = W0 m ρ c (Proc.devRef .tc main_arg3) from by
      show StableHlo.after hostOps0 (W0 m ρ c) (Proc.devRef .tc main_arg3) = W0 m ρ c (Proc.devRef .tc main_arg3)
      host_keeps hostOps0)).trans
    ((rfl : W0 m ρ c (Proc.devRef .tc main_arg3) = m ((c : Thread nD τ).loc main_arg3)))

/-- Argument 4 is as launched when boundary 2 is reached: nothing before it writes the buffer. -/
theorem arg4_at_2 : W2 m ρ c (Proc.devRef .tc main_arg4) = m ((c : Thread nD τ).loc main_arg4) :=
  ((W2_of_ne m ρ c main_arg4 (by decide))).trans
    (((show W1 m ρ c (Proc.devRef .tc main_arg4) = W0 m ρ c (Proc.devRef .tc main_arg4) from by
      show StableHlo.after hostOps0 (W0 m ρ c) (Proc.devRef .tc main_arg4) = W0 m ρ c (Proc.devRef .tc main_arg4)
      host_keeps hostOps0)).trans
    ((rfl : W0 m ρ c (Proc.devRef .tc main_arg4) = m ((c : Thread nD τ).loc main_arg4))))

/-- Argument 5 is as launched when boundary 4 is reached: nothing before it writes the buffer. -/
theorem arg5_at_4 : W4 m ρ c (Proc.devRef .tc main_arg5) = m ((c : Thread nD τ).loc main_arg5) :=
  ((W4_of_ne m ρ c main_arg5 (by decide))).trans
    (((show W3 m ρ c (Proc.devRef .tc main_arg5) = W2 m ρ c (Proc.devRef .tc main_arg5) from by
      show StableHlo.after hostOps1 (W2 m ρ c) (Proc.devRef .tc main_arg5) = W2 m ρ c (Proc.devRef .tc main_arg5)
      host_keeps hostOps1)).trans
    (((W2_of_ne m ρ c main_arg5 (by decide))).trans
    (((show W1 m ρ c (Proc.devRef .tc main_arg5) = W0 m ρ c (Proc.devRef .tc main_arg5) from by
      show StableHlo.after hostOps0 (W0 m ρ c) (Proc.devRef .tc main_arg5) = W0 m ρ c (Proc.devRef .tc main_arg5)
      host_keeps hostOps0)).trans
    ((rfl : W0 m ρ c (Proc.devRef .tc main_arg5) = m ((c : Thread nD τ).loc main_arg5))))))

/-- Argument 6 is as launched when boundary 5 is reached: nothing before it writes the buffer. -/
theorem arg6_at_5 : W5 m ρ c (Proc.devRef .tc main_arg6) = m ((c : Thread nD τ).loc main_arg6) :=
  ((W5_of_ne m ρ c main_arg6 (by decide))).trans
    (((W4_of_ne m ρ c main_arg6 (by decide))).trans
    (((show W3 m ρ c (Proc.devRef .tc main_arg6) = W2 m ρ c (Proc.devRef .tc main_arg6) from by
      show StableHlo.after hostOps1 (W2 m ρ c) (Proc.devRef .tc main_arg6) = W2 m ρ c (Proc.devRef .tc main_arg6)
      host_keeps hostOps1)).trans
    (((W2_of_ne m ρ c main_arg6 (by decide))).trans
    (((show W1 m ρ c (Proc.devRef .tc main_arg6) = W0 m ρ c (Proc.devRef .tc main_arg6) from by
      show StableHlo.after hostOps0 (W0 m ρ c) (Proc.devRef .tc main_arg6) = W0 m ρ c (Proc.devRef .tc main_arg6)
      host_keeps hostOps0)).trans
    ((rfl : W0 m ρ c (Proc.devRef .tc main_arg6) = m ((c : Thread nD τ).loc main_arg6)))))))

/-- Argument 7 is as launched when boundary 7 is reached: nothing before it writes the buffer. -/
theorem arg7_at_7 : W7 m ρ c (Proc.devRef .tc main_arg7) = m ((c : Thread nD τ).loc main_arg7) :=
  ((W7_of_ne m ρ c main_arg7 (by decide))).trans
    (((show W6 m ρ c (Proc.devRef .tc main_arg7) = W5 m ρ c (Proc.devRef .tc main_arg7) from by
      show StableHlo.after hostOps3 (W5 m ρ c) (Proc.devRef .tc main_arg7) = W5 m ρ c (Proc.devRef .tc main_arg7)
      host_keeps hostOps3)).trans
    (((W5_of_ne m ρ c main_arg7 (by decide))).trans
    (((W4_of_ne m ρ c main_arg7 (by decide))).trans
    (((show W3 m ρ c (Proc.devRef .tc main_arg7) = W2 m ρ c (Proc.devRef .tc main_arg7) from by
      show StableHlo.after hostOps1 (W2 m ρ c) (Proc.devRef .tc main_arg7) = W2 m ρ c (Proc.devRef .tc main_arg7)
      host_keeps hostOps1)).trans
    (((W2_of_ne m ρ c main_arg7 (by decide))).trans
    (((show W1 m ρ c (Proc.devRef .tc main_arg7) = W0 m ρ c (Proc.devRef .tc main_arg7) from by
      show StableHlo.after hostOps0 (W0 m ρ c) (Proc.devRef .tc main_arg7) = W0 m ρ c (Proc.devRef .tc main_arg7)
      host_keeps hostOps0)).trans
    ((rfl : W0 m ρ c (Proc.devRef .tc main_arg7) = m ((c : Thread nD τ).loc main_arg7)))))))))

/-- Argument 8 is as launched when boundary 8 is reached: nothing before it writes the buffer. -/
theorem arg8_at_8 : W8 m ρ c (Proc.devRef .tc main_arg8) = m ((c : Thread nD τ).loc main_arg8) :=
  ((W8_of_ne m ρ c main_arg8 (by decide))).trans
    (((W7_of_ne m ρ c main_arg8 (by decide))).trans
    (((show W6 m ρ c (Proc.devRef .tc main_arg8) = W5 m ρ c (Proc.devRef .tc main_arg8) from by
      show StableHlo.after hostOps3 (W5 m ρ c) (Proc.devRef .tc main_arg8) = W5 m ρ c (Proc.devRef .tc main_arg8)
      host_keeps hostOps3)).trans
    (((W5_of_ne m ρ c main_arg8 (by decide))).trans
    (((W4_of_ne m ρ c main_arg8 (by decide))).trans
    (((show W3 m ρ c (Proc.devRef .tc main_arg8) = W2 m ρ c (Proc.devRef .tc main_arg8) from by
      show StableHlo.after hostOps1 (W2 m ρ c) (Proc.devRef .tc main_arg8) = W2 m ρ c (Proc.devRef .tc main_arg8)
      host_keeps hostOps1)).trans
    (((W2_of_ne m ρ c main_arg8 (by decide))).trans
    (((show W1 m ρ c (Proc.devRef .tc main_arg8) = W0 m ρ c (Proc.devRef .tc main_arg8) from by
      show StableHlo.after hostOps0 (W0 m ρ c) (Proc.devRef .tc main_arg8) = W0 m ρ c (Proc.devRef .tc main_arg8)
      host_keeps hostOps0)).trans
    ((rfl : W0 m ρ c (Proc.devRef .tc main_arg8) = m ((c : Thread nD τ).loc main_arg8))))))))))

/-- Argument 2 is as launched when boundary 10 is reached: nothing before it writes the buffer. -/
theorem arg2_at_10 : W10 m ρ c (Proc.devRef .tc main_arg2) = m ((c : Thread nD τ).loc main_arg2) :=
  ((W10_of_ne m ρ c main_arg2 (by decide))).trans
    (((show W9 m ρ c (Proc.devRef .tc main_arg2) = W8 m ρ c (Proc.devRef .tc main_arg2) from by
      show StableHlo.after hostOps5 (W8 m ρ c) (Proc.devRef .tc main_arg2) = W8 m ρ c (Proc.devRef .tc main_arg2)
      host_keeps hostOps5)).trans
    (((W8_of_ne m ρ c main_arg2 (by decide))).trans
    (((W7_of_ne m ρ c main_arg2 (by decide))).trans
    (((show W6 m ρ c (Proc.devRef .tc main_arg2) = W5 m ρ c (Proc.devRef .tc main_arg2) from by
      show StableHlo.after hostOps3 (W5 m ρ c) (Proc.devRef .tc main_arg2) = W5 m ρ c (Proc.devRef .tc main_arg2)
      host_keeps hostOps3)).trans
    (((W5_of_ne m ρ c main_arg2 (by decide))).trans
    (((W4_of_ne m ρ c main_arg2 (by decide))).trans
    (((show W3 m ρ c (Proc.devRef .tc main_arg2) = W2 m ρ c (Proc.devRef .tc main_arg2) from by
      show StableHlo.after hostOps1 (W2 m ρ c) (Proc.devRef .tc main_arg2) = W2 m ρ c (Proc.devRef .tc main_arg2)
      host_keeps hostOps1)).trans
    (((W2_of_ne m ρ c main_arg2 (by decide))).trans
    (((show W1 m ρ c (Proc.devRef .tc main_arg2) = W0 m ρ c (Proc.devRef .tc main_arg2) from by
      show StableHlo.after hostOps0 (W0 m ρ c) (Proc.devRef .tc main_arg2) = W0 m ρ c (Proc.devRef .tc main_arg2)
      host_keeps hostOps0)).trans
    ((rfl : W0 m ρ c (Proc.devRef .tc main_arg2) = m ((c : Thread nD τ).loc main_arg2))))))))))))

/-- Argument 9 is as launched when boundary 10 is reached: nothing before it writes the buffer. -/
theorem arg9_at_10 : W10 m ρ c (Proc.devRef .tc main_arg9) = m ((c : Thread nD τ).loc main_arg9) :=
  ((W10_of_ne m ρ c main_arg9 (by decide))).trans
    (((show W9 m ρ c (Proc.devRef .tc main_arg9) = W8 m ρ c (Proc.devRef .tc main_arg9) from by
      show StableHlo.after hostOps5 (W8 m ρ c) (Proc.devRef .tc main_arg9) = W8 m ρ c (Proc.devRef .tc main_arg9)
      host_keeps hostOps5)).trans
    (((W8_of_ne m ρ c main_arg9 (by decide))).trans
    (((W7_of_ne m ρ c main_arg9 (by decide))).trans
    (((show W6 m ρ c (Proc.devRef .tc main_arg9) = W5 m ρ c (Proc.devRef .tc main_arg9) from by
      show StableHlo.after hostOps3 (W5 m ρ c) (Proc.devRef .tc main_arg9) = W5 m ρ c (Proc.devRef .tc main_arg9)
      host_keeps hostOps3)).trans
    (((W5_of_ne m ρ c main_arg9 (by decide))).trans
    (((W4_of_ne m ρ c main_arg9 (by decide))).trans
    (((show W3 m ρ c (Proc.devRef .tc main_arg9) = W2 m ρ c (Proc.devRef .tc main_arg9) from by
      show StableHlo.after hostOps1 (W2 m ρ c) (Proc.devRef .tc main_arg9) = W2 m ρ c (Proc.devRef .tc main_arg9)
      host_keeps hostOps1)).trans
    (((W2_of_ne m ρ c main_arg9 (by decide))).trans
    (((show W1 m ρ c (Proc.devRef .tc main_arg9) = W0 m ρ c (Proc.devRef .tc main_arg9) from by
      show StableHlo.after hostOps0 (W0 m ρ c) (Proc.devRef .tc main_arg9) = W0 m ρ c (Proc.devRef .tc main_arg9)
      host_keeps hostOps0)).trans
    ((rfl : W0 m ρ c (Proc.devRef .tc main_arg9) = m ((c : Thread nD τ).loc main_arg9))))))))))))

/-- Argument 10 is as launched when boundary 10 is reached: nothing before it writes the buffer. -/
theorem arg10_at_10 : W10 m ρ c (Proc.devRef .tc main_arg10) = m ((c : Thread nD τ).loc main_arg10) :=
  ((W10_of_ne m ρ c main_arg10 (by decide))).trans
    (((show W9 m ρ c (Proc.devRef .tc main_arg10) = W8 m ρ c (Proc.devRef .tc main_arg10) from by
      show StableHlo.after hostOps5 (W8 m ρ c) (Proc.devRef .tc main_arg10) = W8 m ρ c (Proc.devRef .tc main_arg10)
      host_keeps hostOps5)).trans
    (((W8_of_ne m ρ c main_arg10 (by decide))).trans
    (((W7_of_ne m ρ c main_arg10 (by decide))).trans
    (((show W6 m ρ c (Proc.devRef .tc main_arg10) = W5 m ρ c (Proc.devRef .tc main_arg10) from by
      show StableHlo.after hostOps3 (W5 m ρ c) (Proc.devRef .tc main_arg10) = W5 m ρ c (Proc.devRef .tc main_arg10)
      host_keeps hostOps3)).trans
    (((W5_of_ne m ρ c main_arg10 (by decide))).trans
    (((W4_of_ne m ρ c main_arg10 (by decide))).trans
    (((show W3 m ρ c (Proc.devRef .tc main_arg10) = W2 m ρ c (Proc.devRef .tc main_arg10) from by
      show StableHlo.after hostOps1 (W2 m ρ c) (Proc.devRef .tc main_arg10) = W2 m ρ c (Proc.devRef .tc main_arg10)
      host_keeps hostOps1)).trans
    (((W2_of_ne m ρ c main_arg10 (by decide))).trans
    (((show W1 m ρ c (Proc.devRef .tc main_arg10) = W0 m ρ c (Proc.devRef .tc main_arg10) from by
      show StableHlo.after hostOps0 (W0 m ρ c) (Proc.devRef .tc main_arg10) = W0 m ρ c (Proc.devRef .tc main_arg10)
      host_keeps hostOps0)).trans
    ((rfl : W0 m ρ c (Proc.devRef .tc main_arg10) = m ((c : Thread nD τ).loc main_arg10))))))))))))

/-! ## The edge list's three arrays, from the first region's entry to each later host stretch's -/

theorem src_2_1 : W2 m ρ c (Proc.devRef .tc main_v3) = W1 m ρ c (Proc.devRef .tc main_v3) :=
  (W2_of_ne m ρ c main_v3 (by decide))

theorem src_5_2 : W5 m ρ c (Proc.devRef .tc main_v3) = W2 m ρ c (Proc.devRef .tc main_v3) :=
  ((W5_of_ne m ρ c main_v3 (by decide))).trans
    (((W4_of_ne m ρ c main_v3 (by decide))).trans
    ((show W3 m ρ c (Proc.devRef .tc main_v3) = W2 m ρ c (Proc.devRef .tc main_v3) from by
      show StableHlo.after hostOps1 (W2 m ρ c) (Proc.devRef .tc main_v3) = W2 m ρ c (Proc.devRef .tc main_v3)
      host_keeps hostOps1)))

theorem src_8_5 : W8 m ρ c (Proc.devRef .tc main_v3) = W5 m ρ c (Proc.devRef .tc main_v3) :=
  ((W8_of_ne m ρ c main_v3 (by decide))).trans
    (((W7_of_ne m ρ c main_v3 (by decide))).trans
    ((show W6 m ρ c (Proc.devRef .tc main_v3) = W5 m ρ c (Proc.devRef .tc main_v3) from by
      show StableHlo.after hostOps3 (W5 m ρ c) (Proc.devRef .tc main_v3) = W5 m ρ c (Proc.devRef .tc main_v3)
      host_keeps hostOps3)))

theorem dst_2_1 : W2 m ρ c (Proc.devRef .tc main_v6) = W1 m ρ c (Proc.devRef .tc main_v6) :=
  (W2_of_ne m ρ c main_v6 (by decide))

theorem dst_5_2 : W5 m ρ c (Proc.devRef .tc main_v6) = W2 m ρ c (Proc.devRef .tc main_v6) :=
  ((W5_of_ne m ρ c main_v6 (by decide))).trans
    (((W4_of_ne m ρ c main_v6 (by decide))).trans
    ((show W3 m ρ c (Proc.devRef .tc main_v6) = W2 m ρ c (Proc.devRef .tc main_v6) from by
      show StableHlo.after hostOps1 (W2 m ρ c) (Proc.devRef .tc main_v6) = W2 m ρ c (Proc.devRef .tc main_v6)
      host_keeps hostOps1)))

theorem dst_8_5 : W8 m ρ c (Proc.devRef .tc main_v6) = W5 m ρ c (Proc.devRef .tc main_v6) :=
  ((W8_of_ne m ρ c main_v6 (by decide))).trans
    (((W7_of_ne m ρ c main_v6 (by decide))).trans
    ((show W6 m ρ c (Proc.devRef .tc main_v6) = W5 m ρ c (Proc.devRef .tc main_v6) from by
      show StableHlo.after hostOps3 (W5 m ρ c) (Proc.devRef .tc main_v6) = W5 m ρ c (Proc.devRef .tc main_v6)
      host_keeps hostOps3)))

theorem nrm_2_1 : W2 m ρ c (Proc.devRef .tc main_v26) = W1 m ρ c (Proc.devRef .tc main_v26) :=
  (W2_of_ne m ρ c main_v26 (by decide))

theorem nrm_5_2 : W5 m ρ c (Proc.devRef .tc main_v26) = W2 m ρ c (Proc.devRef .tc main_v26) :=
  ((W5_of_ne m ρ c main_v26 (by decide))).trans
    (((W4_of_ne m ρ c main_v26 (by decide))).trans
    ((show W3 m ρ c (Proc.devRef .tc main_v26) = W2 m ρ c (Proc.devRef .tc main_v26) from by
      show StableHlo.after hostOps1 (W2 m ρ c) (Proc.devRef .tc main_v26) = W2 m ρ c (Proc.devRef .tc main_v26)
      host_keeps hostOps1)))

theorem nrm_8_5 : W8 m ρ c (Proc.devRef .tc main_v26) = W5 m ρ c (Proc.devRef .tc main_v26) :=
  ((W8_of_ne m ρ c main_v26 (by decide))).trans
    (((W7_of_ne m ρ c main_v26 (by decide))).trans
    ((show W6 m ρ c (Proc.devRef .tc main_v26) = W5 m ρ c (Proc.devRef .tc main_v26) from by
      show StableHlo.after hostOps3 (W5 m ρ c) (Proc.devRef .tc main_v26) = W5 m ρ c (Proc.devRef .tc main_v26)
      host_keeps hostOps3)))

end Cert.KernelIdeal.Keeps

end
-- ==== Proof.Spec.lean ====
/-
  The two dense pieces of a graph-convolution layer, as whole-array functions on the extended reals.

  A layer of the network is  h ↦ relu (Â (h · W) + b):  a matrix product with the layer's weights, the normalised
  neighbourhood sum (a gather along the edges, a scaling, a scatter-add), the bias added to every row, and the
  positive part. The matrix product and the bias-and-positive-part are computed tile by tile in the kernel and in one
  operation each in the reference; they are stated here once, entry by entry.
-/
import Idealize.ShloMosaic.PureOps.Ideal
import Idealize.ShloMosaic.Lib.ValueIdx

noncomputable section

namespace Cert.Gcn

open Idealize.ShloMosaic Idealize.ShloMosaic.ValueIdx
open scoped BigOperators

/-- The product of a 50000×128 feature matrix with a 128×128 weight matrix: entry (r, c) is the sum over k of
    h[r, k] · w[k, c]. -/
def matProd (h : (⟨2, ![50000, 128]⟩ : Shape).Idx → EReal) (w : (⟨2, ![128, 128]⟩ : Shape).Idx → EReal) :
    (⟨2, ![50000, 128]⟩ : Shape).Idx → EReal :=
  fun i => ∑ k : Fin 128, h (ix2 (i 0) k) * w (ix2 k (i 1))

/-- The bias added to every row and the positive part taken: entry (r, c) is max (a[r, c] + b[c], 0), the zero being
    the f32 zero word read on the extended reals. -/
def biasRelu (a : (⟨2, ![50000, 128]⟩ : Shape).Idx → EReal) (b : (⟨1, ![128]⟩ : Shape).Idx → EReal) :
    (⟨2, ![50000, 128]⟩ : Shape).Idx → EReal :=
  fun i => max (a i + b (ix1 (i 1))) (Ideal.ofBits .f32 0x00000000#32)

end Cert.Gcn

end
-- ==== Proof.TileProduct.lean ====
/-
  One tile of the matrix product, entry by entry.

  The kernel's matrix-product body loads a 5000×128 tile of the features and the whole 128×128 weight matrix, narrows
  both to bf16 (the identity on the extended reals) and multiplies them into a zero accumulator. Entry (p, q) of what
  it stores is therefore the plain sum over k of x[p, k] · w[k, q]; if the tile's rows are rows of a larger matrix
  and the weights are the weight matrix, that is the corresponding entry of the whole product.
-/
import proofs.«173898_j40140764348924_1_alg».proof.Proof.Gen.KernelIdeal.Skeleton
import proofs.«173898_j40140764348924_1_alg».proof.Proof.Spec
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx
open scoped BigOperators

/-- The tile product's left operand index at output (p, q) and contraction position k is (p, k). -/
theorem lhs_row (i : S5000x128.Idx) (z : dot_S5000x128_S128x128_S5000x128_1_0_0_1_n_n.contr.Idx) :
    (dot_S5000x128_S128x128_S5000x128_1_0_0_1_n_n.lhsIdx i z 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs_col (i : S5000x128.Idx) (z : dot_S5000x128_S128x128_S5000x128_1_0_0_1_n_n.contr.Idx) :
    (dot_S5000x128_S128x128_S5000x128_1_0_0_1_n_n.lhsIdx i z 1).val = (z ⟨0, by decide⟩).val :=
  dot_S5000x128_S128x128_S5000x128_1_0_0_1_n_n.lhsIdx_val_of_single rfl i z
/-- The right operand index is (k, q). -/
theorem rhs_row (i : S5000x128.Idx) (z : dot_S5000x128_S128x128_S5000x128_1_0_0_1_n_n.contr.Idx) :
    (dot_S5000x128_S128x128_S5000x128_1_0_0_1_n_n.rhsIdx i z 0).val = (z ⟨0, by decide⟩).val :=
  dot_S5000x128_S128x128_S5000x128_1_0_0_1_n_n.rhsIdx_val_of_single rfl i z
theorem rhs_col (i : S5000x128.Idx) (z : dot_S5000x128_S128x128_S5000x128_1_0_0_1_n_n.contr.Idx) :
    (dot_S5000x128_S128x128_S5000x128_1_0_0_1_n_n.rhsIdx i z 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The narrowed operands multiplied into the zero accumulator, at entry j: the sum over k of x[j₀, k] · w[k, j₁]. -/
theorem product_apply (x : Vec Ideal S5000x128 .f32) (w : Vec Ideal S128x128 .f32) (j : S5000x128.Idx) :
    matmul (F := Ideal) dot_S5000x128_S128x128_S5000x128_1_0_0_1_n_n none (truncf .bf16 x bitsLt_bf16_f32) (truncf .bf16 w bitsLt_bf16_f32)
        (constant (F := Ideal) S5000x128 .f32 0x00000000#32) j
      = ∑ k : Fin 128, x (ix2 (j 0) k) * w (ix2 k (j 1)) := by
  simp only [matmul]
  rw [Ideal.matmul_constant_zero_apply,
    ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j
      ((ValueIdx.contrEquiv1 dot_S5000x128_S128x128_S5000x128_1_0_0_1_n_n 128 rfl rfl).symm k) = ix2 (j 0) k :=
    funext fun a => Fin.ext (by
      match a with
      | ⟨0, _⟩ => exact lhs_row _ _
      | ⟨1, _⟩ => exact (lhs_col _ _).trans hk)
  have er : dot_S5000x128_S128x128_S5000x128_1_0_0_1_n_n.rhsIdx j
      ((ValueIdx.contrEquiv1 dot_S5000x128_S128x128_S5000x128_1_0_0_1_n_n 128 rfl rfl).symm k) = ix2 k (j 1) :=
    funext fun a => Fin.ext (by
      match a with
      | ⟨0, _⟩ => exact (rhs_row _ _).trans hk
      | ⟨1, _⟩ => exact rhs_col _ _)
  rw [el, er]
  rfl

/-- The first layer's body stores that product. -/
theorem pay0_apply (x : Vec Ideal S5000x128 .f32) (w : Vec Ideal S128x128 .f32) (j : S5000x128.Idx) :
    k0_pay1 (F := Ideal) x w j = ∑ k : Fin 128, x (ix2 (j 0) k) * w (ix2 k (j 1)) := by
  unfold k0_pay1
  exact product_apply x w j

/-- So do the later layers' bodies, whose loaded tile first passes through a cast to its own shape. -/
theorem pay2_apply (x : Vec Ideal S5000x128 .f32) (w : Vec Ideal S128x128 .f32) (j : S5000x128.Idx) :
    k2_pay1 (F := Ideal) x w j = ∑ k : Fin 128, x (ix2 (j 0) k) * w (ix2 k (j 1)) := by
  unfold k2_pay1
  rw [shapeCast_self]
  exact product_apply x w j
theorem pay4_apply (x : Vec Ideal S5000x128 .f32) (w : Vec Ideal S128x128 .f32) (j : S5000x128.Idx) :
    k4_pay1 (F := Ideal) x w j = ∑ k : Fin 128, x (ix2 (j 0) k) * w (ix2 k (j 1)) := by
  unfold k4_pay1
  rw [shapeCast_self]
  exact product_apply x w j

/-- A tile whose row j₀ is row i₀ of a larger matrix h, the loaded weights' column j₁ being column i₁ of w', holds at
    j the whole product's entry at i. (The body's stored value enters as any function e with the entry formula.) -/
theorem tile_is_product (e : Vec Ideal S5000x128 .f32 → Vec Ideal S128x128 .f32 → S5000x128.Idx → EReal)
    (he : ∀ x w j, e x w j = ∑ k : Fin 128, x (ix2 (j 0) k) * w (ix2 k (j 1)))
    (x : Vec Ideal S5000x128 .f32) (w : Vec Ideal S128x128 .f32)
    (h : (⟨2, ![50000, 128]⟩ : Shape).Idx → EReal) (w' : (⟨2, ![128, 128]⟩ : Shape).Idx → EReal)
    (j : S5000x128.Idx) (i : (⟨2, ![50000, 128]⟩ : Shape).Idx)
    (hx : ∀ k : Fin 128, x (ix2 (j 0) k) = h (ix2 (i 0) k))
    (hw : ∀ k : Fin 128, w (ix2 k (j 1)) = w' (ix2 k (i 1))) :
    e x w j = Cert.Gcn.matProd h w' i := by
  rw [he]
  unfold Cert.Gcn.matProd
  exact Finset.sum_congr rfl fun k _ => by rw [hx k, hw k]

end Cert.KernelIdeal.Tile

end
-- ==== Proof.Product1.lean ====
/-
  Layer 1's matrix product, from tiles to the whole array.

  The region runs over ten grid points; point t loads rows 5000·t … 5000·t + 4999 of the feature matrix and the whole
  weight matrix, and writes back the same rows of the product. Each write-back is the restriction of ONE function of
  the two arrays as the region finds them — the whole product, entry by entry — and the ten row blocks cover the
  50000 rows, so the output array ends holding that function.
-/
import proofs.«173898_j40140764348924_1_alg».proof.Proof.Gen.KernelIdeal.Frame
import proofs.«173898_j40140764348924_1_alg».proof.Proof.TileProduct

set_option maxRecDepth 16384

noncomputable section

namespace Cert.KernelIdeal.Product1

open Cert.KernelIdeal Cert.KernelIdeal.Gen Idealize.ShloMosaic Idealize.ShloMosaic.TcCoe Idealize.ShloMosaic.ValueIdx Idealize.SL.Sem
open Idealize.ShloMosaic.Pipeline (Dat)

-- the buffer contents when the region is entered
variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the feature tile and the output tile are the same row block, all columns; the
    weights are the one whole block. -/
theorem index_maps : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every row block is some point's. -/
theorem row_block_onto : ∀ q0 : Fin 10, ∃ t : Fin cfg0.N, win0_2.index t = ![q0.val, 0] :=
  (by decide +kernel : ∀ q0 : Fin 10, ∃ t : Fin grid0.N, win0_2.index t = ![q0.val, 0])

/-- What point t writes back is block t of the whole product of the two arrays as the region finds them. -/
theorem flushed (c : Dev nD) (t : Fin cfg0.N) :
    (dat0 V c).flushed 2 t
      = ((cfg0.win 2).blk t).view.read (Elt Ideal) (Cert.Gcn.matProd (V c main_arg0) (V c main_arg3)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  obtain ⟨e0, e1, e2, e3, e4, e5⟩ := index_maps t
  funext j
  show k0_pay1 (iblk0 V c 0 t) (iblk0 V c 1 t) j
    = Cert.Gcn.matProd (V c main_arg0) (V c main_arg3) (((cfg0.win 2).blk t).view.emb j)
  refine Tile.tile_is_product (k0_pay1 (F := Ideal)) Tile.pay0_apply _ _ _ _ j _ (fun k => ?_) (fun k => ?_)
  · show V c main_arg0 (((cfg0.win 0).blk t).view.emb (ix2 (j 0) k))
      = V c main_arg0 (ix2 ((((cfg0.win 2).blk t).view.emb j) 0) k)
    refine congrArg _ (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 128 + 1 * k.val = k.val
      omega
  · show V c main_arg3 (((cfg0.win 1).blk t).view.emb (ix2 k (j 1)))
      = V c main_arg3 (ix2 k ((((cfg0.win 2).blk t).view.emb j) 1))
    refine congrArg _ (funext fun a => Fin.ext ?_)
    match a with
    | ⟨0, _⟩ =>
      show win0_1.index t (0 : Fin 2) * 128 + 1 * k.val = k.val
      omega
    | ⟨1, _⟩ =>
      show win0_1.index t (1 : Fin 2) * 128 + 1 * (j 1).val = win0_2.index t (1 : Fin 2) * 128 + 1 * (j 1).val
      omega

/-- An index of the output array is in point t's block iff each coordinate is in the block's range on its axis. -/
theorem mem_block (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v27).slice (win0_2.rect t)).set ↔ _
  rw [View.set_slice_whole, Rect.mem_set_unit]
  exact Iff.rfl

/-- The row blocks cover the array: row r is in the block of the point whose index is r / 5000. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := row_block_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- The output array after the region: the whole product of the feature array and the weight array as entered. -/
theorem array (c : Dev nD) :
    (dat0 V c).arrAt 2 cfg0.N = Cert.Gcn.matProd (V c main_arg0) (V c main_arg3) :=
  (dat0 V c).arrAt_eq_of_cover 2 _ (fun t _ => flushed V c t) covered

end Cert.KernelIdeal.Product1

end
-- ==== Proof.Product2.lean ====
/-
  Layer 2's matrix product, from tiles to the whole array.

  The region runs over ten grid points; point t loads rows 5000·t … 5000·t + 4999 of the feature matrix and the whole
  weight matrix, and writes back the same rows of the product. Each write-back is the restriction of ONE function of
  the two arrays as the region finds them — the whole product, entry by entry — and the ten row blocks cover the
  50000 rows, so the output array ends holding that function.
-/
import proofs.«173898_j40140764348924_1_alg».proof.Proof.Gen.KernelIdeal.Frame
import proofs.«173898_j40140764348924_1_alg».proof.Proof.TileProduct

set_option maxRecDepth 16384

noncomputable section

namespace Cert.KernelIdeal.Product2

open Cert.KernelIdeal Cert.KernelIdeal.Gen Idealize.ShloMosaic Idealize.ShloMosaic.TcCoe Idealize.ShloMosaic.ValueIdx Idealize.SL.Sem
open Idealize.ShloMosaic.Pipeline (Dat)

-- the buffer contents when the region is entered
variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the feature tile and the output tile are the same row block, all columns; the
    weights are the one whole block. -/
theorem index_maps : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every row block is some point's. -/
theorem row_block_onto : ∀ q0 : Fin 10, ∃ t : Fin cfg2.N, win2_2.index t = ![q0.val, 0] :=
  (by decide +kernel : ∀ q0 : Fin 10, ∃ t : Fin grid2.N, win2_2.index t = ![q0.val, 0])

/-- What point t writes back is block t of the whole product of the two arrays as the region finds them. -/
theorem flushed (c : Dev nD) (t : Fin cfg2.N) :
    (dat2 V c).flushed 2 t
      = ((cfg2.win 2).blk t).view.read (Elt Ideal) (Cert.Gcn.matProd (V c main_v42) (V c main_arg5)) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x128) origin]
  obtain ⟨e0, e1, e2, e3, e4, e5⟩ := index_maps t
  funext j
  show k2_pay1 (iblk2 V c 0 t) (iblk2 V c 1 t) j
    = Cert.Gcn.matProd (V c main_v42) (V c main_arg5) (((cfg2.win 2).blk t).view.emb j)
  refine Tile.tile_is_product (k2_pay1 (F := Ideal)) Tile.pay2_apply _ _ _ _ j _ (fun k => ?_) (fun k => ?_)
  · show V c main_v42 (((cfg2.win 0).blk t).view.emb (ix2 (j 0) k))
      = V c main_v42 (ix2 ((((cfg2.win 2).blk t).view.emb j) 0) k)
    refine congrArg _ (funext fun a => Fin.ext ?_)
    match a with
    | ⟨0, _⟩ =>
      show win2_0.index t (0 : Fin 2) * 5000 + 1 * (j 0).val = win2_2.index t (0 : Fin 2) * 5000 + 1 * (j 0).val
      omega
    | ⟨1, _⟩ =>
      show win2_0.index t (1 : Fin 2) * 128 + 1 * k.val = k.val
      omega
  · show V c main_arg5 (((cfg2.win 1).blk t).view.emb (ix2 k (j 1)))
      = V c main_arg5 (ix2 k ((((cfg2.win 2).blk t).view.emb j) 1))
    refine congrArg _ (funext fun a => Fin.ext ?_)
    match a with
    | ⟨0, _⟩ =>
      show win2_1.index t (0 : Fin 2) * 128 + 1 * k.val = k.val
      omega
    | ⟨1, _⟩ =>
      show win2_1.index t (1 : Fin 2) * 128 + 1 * (j 1).val = win2_2.index t (1 : Fin 2) * 128 + 1 * (j 1).val
      omega

/-- An index of the output array is in point t's block iff each coordinate is in the block's range on its axis. -/
theorem mem_block (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v43).slice (win2_2.rect t)).set ↔ _
  rw [View.set_slice_whole, Rect.mem_set_unit]
  exact Iff.rfl

/-- The row blocks cover the array: row r is in the block of the point whose index is r / 5000. -/
theorem covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := row_block_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 128 ≤ (i 1).val ∧ (i 1).val < win2_2.index t (1 : Fin 2) * 128 + 128
    omega

/-- The output array after the region: the whole product of the feature array and the weight array as entered. -/
theorem array (c : Dev nD) :
    (dat2 V c).arrAt 2 cfg2.N = Cert.Gcn.matProd (V c main_v42) (V c main_arg5) :=
  (dat2 V c).arrAt_eq_of_cover 2 _ (fun t _ => flushed V c t) covered

end Cert.KernelIdeal.Product2

end
-- ==== Proof.Product3.lean ====
/-
  Layer 3's matrix product, from tiles to the whole array.

  The region runs over ten grid points; point t loads rows 5000·t … 5000·t + 4999 of the feature matrix and the whole
  weight matrix, and writes back the same rows of the product. Each write-back is the restriction of ONE function of
  the two arrays as the region finds them — the whole product, entry by entry — and the ten row blocks cover the
  50000 rows, so the output array ends holding that function.
-/
import proofs.«173898_j40140764348924_1_alg».proof.Proof.Gen.KernelIdeal.Frame
import proofs.«173898_j40140764348924_1_alg».proof.Proof.TileProduct

set_option maxRecDepth 16384

noncomputable section

namespace Cert.KernelIdeal.Product3

open Cert.KernelIdeal Cert.KernelIdeal.Gen Idealize.ShloMosaic Idealize.ShloMosaic.TcCoe Idealize.ShloMosaic.ValueIdx Idealize.SL.Sem
open Idealize.ShloMosaic.Pipeline (Dat)

-- the buffer contents when the region is entered
variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the feature tile and the output tile are the same row block, all columns; the
    weights are the one whole block. -/
theorem index_maps : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 ∧ win4_2.index t (0 : Fin 2) ≤ 9 :=
  (by decide +kernel : ∀ t : Fin grid4.N, _)

/-- Every row block is some point's. -/
theorem row_block_onto : ∀ q0 : Fin 10, ∃ t : Fin cfg4.N, win4_2.index t = ![q0.val, 0] :=
  (by decide +kernel : ∀ q0 : Fin 10, ∃ t : Fin grid4.N, win4_2.index t = ![q0.val, 0])

/-- What point t writes back is block t of the whole product of the two arrays as the region finds them. -/
theorem flushed (c : Dev nD) (t : Fin cfg4.N) :
    (dat4 V c).flushed 2 t
      = ((cfg4.win 2).blk t).view.read (Elt Ideal) (Cert.Gcn.matProd (V c main_v58) (V c main_arg7)) := by
  show (cfg4.win 2).cut (grid4.coords t) ((dat4 V c).after 2 t) = _
  rw [after4_2]
  unfold out4_2
  rw [View.canon_unit_zero origin]
  simp only [View.ld_unit_zero (S := S5000x128) origin, View.ld_unit_zero (S := S128x128) origin]
  obtain ⟨e0, e1, e2, e3, e4, e5⟩ := index_maps t
  funext j
  show k4_pay1 (iblk4 V c 0 t) (iblk4 V c 1 t) j
    = Cert.Gcn.matProd (V c main_v58) (V c main_arg7) (((cfg4.win 2).blk t).view.emb j)
  refine Tile.tile_is_product (k4_pay1 (F := Ideal)) Tile.pay4_apply _ _ _ _ j _ (fun k => ?_) (fun k => ?_)
  · show V c main_v58 (((cfg4.win 0).blk t).view.emb (ix2 (j 0) k))
      = V c main_v58 (ix2 ((((cfg4.win 2).blk t).view.emb j) 0) k)
    refine congrArg _ (funext fun a => Fin.ext ?_)
    match a with
    | ⟨0, _⟩ =>
      show win4_0.index t (0 : Fin 2) * 5000 + 1 * (j 0).val = win4_2.index t (0 : Fin 2) * 5000 + 1 * (j 0).val
      omega
    | ⟨1, _⟩ =>
      show win4_0.index t (1 : Fin 2) * 128 + 1 * k.val = k.val
      omega
  · show V c main_arg7 (((cfg4.win 1).blk t).view.emb (ix2 k (j 1)))
      = V c main_arg7 (ix2 k ((((cfg4.win 2).blk t).view.emb j) 1))
    refine congrArg _ (funext fun a => Fin.ext ?_)
    match a with
    | ⟨0, _⟩ =>
      show win4_1.index t (0 : Fin 2) * 128 + 1 * k.val = k.val
      omega
    | ⟨1, _⟩ =>
      show win4_1.index t (1 : Fin 2) * 128 + 1 * (j 1).val = win4_2.index t (1 : Fin 2) * 128 + 1 * (j 1).val
      omega

/-- An index of the output array is in point t's block iff each coordinate is in the block's range on its axis. -/
theorem mem_block (t : Fin cfg4.N) (i : S50000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v59).slice (win4_2.rect t)).set ↔ _
  rw [View.set_slice_whole, Rect.mem_set_unit]
  exact Iff.rfl

/-- The row blocks cover the array: row r is in the block of the point whose index is r / 5000. -/
theorem covered (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  obtain ⟨t, ht⟩ := row_block_onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_block]
  intro a
  match a with
  | ⟨0, _⟩ =>
    show win4_2.index t (0 : Fin 2) * 5000 ≤ (i 0).val ∧ (i 0).val < win4_2.index t (0 : Fin 2) * 5000 + 5000
    omega
  | ⟨1, _⟩ =>
    show win4_2.index t (1 : Fin 2) * 128 ≤ (i 1).val ∧ (i 1).val < win4_2.index t (1 : Fin 2) * 128 + 128
    omega

/-- The output array after the region: the whole product of the feature array and the weight array as entered. -/
theorem array (c : Dev nD) :
    (dat4 V c).arrAt 2 cfg4.N = Cert.Gcn.matProd (V c main_v58) (V c main_arg7) :=
  (dat4 V c).arrAt_eq_of_cover 2 _ (fun t _ => flushed V c t) covered

end Cert.KernelIdeal.Product3

end
-- ==== Proof.TileBiasRelu.lean ====
/-
  One tile of the bias-and-positive-part pass, entry by entry.

  The body loads a 5000×128 tile of the aggregated features and the bias as a 1×128 row, spreads the row over the
  tile's rows, adds, and takes the maximum with zero. Entry (p, q) of what it stores is max (a[p, q] + b[0, q], 0).
-/
import proofs.«173898_j40140764348924_1_alg».proof.Proof.Gen.KernelIdeal.Skeleton
import proofs.«173898_j40140764348924_1_alg».proof.Proof.Spec
import Idealize.ShloMosaic.Lib.ValueIdx
import Idealize.ShloMosaic.Lib.ValueLayout
import Idealize.ShloMosaic.Lib.Pipeline.Value

noncomputable section

namespace Cert.KernelIdeal.Tile

open Cert.KernelIdeal Cert.KernelIdeal.Gen Idealize.ShloMosaic Idealize.ShloMosaic.ValueIdx

/-- The row spread over the tile, added, and the positive part, at entry (p, q). -/
theorem biasRelu_apply (a : Vec Ideal S5000x128 .f32) (b : Vec Ideal S1x128 .f32) (p : Fin 5000) (q : Fin 128) :
    maximumf (addf (shapeCast S5000x128 a shapeCasts_S5000x128_S5000x128)
        (broadcastTo S5000x128 (shapeCast S1x128 b shapeCasts_S1x128_S1x128) broadcasts_S1x128_S5000x128))
      (broadcast S5000x128 (Scalar.ofBits (F := Ideal) .f32 0x00000000#32)) (ix2 p q)
      = max (a (ix2 p q) + b (ix2 (0 : Fin 1) q)) (Ideal.ofBits .f32 0x00000000#32) := by
  rw [shapeCast_self, shapeCast_self, maximumf_apply, addf_apply, broadcastTo_1b_ab_apply]
  rfl

theorem pay1_apply (a : Vec Ideal S5000x128 .f32) (b : Vec Ideal S1x128 .f32) (p : Fin 5000) (q : Fin 128) :
    k1_pay1 (F := Ideal) a b (ix2 p q) = max (a (ix2 p q) + b (ix2 (0 : Fin 1) q)) (Ideal.ofBits .f32 0x00000000#32) := by
  unfold k1_pay1
  exact biasRelu_apply a b p q
theorem pay3_apply (a : Vec Ideal S5000x128 .f32) (b : Vec Ideal S1x128 .f32) (p : Fin 5000) (q : Fin 128) :
    k3_pay1 (F := Ideal) a b (ix2 p q) = max (a (ix2 p q) + b (ix2 (0 : Fin 1) q)) (Ideal.ofBits .f32 0x00000000#32) := by
  unfold k3_pay1
  exact biasRelu_apply a b p q
theorem pay5_apply (a : Vec Ideal S5000x128 .f32) (b : Vec Ideal S1x128 .f32) (p : Fin 5000) (q : Fin 128) :
    k5_pay1 (F := Ideal) a b (ix2 p q) = max (a (ix2 p q) + b (ix2 (0 : Fin 1) q)) (Ideal.ofBits .f32 0x00000000#32) := by
  unfold k5_pay1
  exact biasRelu_apply a b p q

/-- A tile whose entry j is entry i of a larger matrix a', the loaded row holding the bias b' (cast to one row), holds
    at j the whole pass's entry at i. (The body's stored value enters as any function e with the entry formula.) -/
theorem tile_is_biasRelu (e : Vec Ideal S5000x128 .f32 → Vec Ideal S1x128 .f32 → S5000x128.Idx → EReal)
    (he : ∀ a b (p : Fin 5000) (q : Fin 128), e a b (ix2 p q) = max (a (ix2 p q) + b (ix2 (0 : Fin 1) q)) (Ideal.ofBits .f32 0x00000000#32))
    (a : Vec Ideal S5000x128 .f32) (b : Vec Ideal S1x128 .f32)
    (a' : (⟨2, ![50000, 128]⟩ : Shape).Idx → EReal) (b' : (⟨1, ![128]⟩ : Shape).Idx → EReal)
    (j : S5000x128.Idx) (i : (⟨2, ![50000, 128]⟩ : Shape).Idx)
    (ha : a j = a' i)
    (hb : b (ix2 (0 : Fin 1) (j 1)) = b' (ix1 (i 1))) :
    e a b j = Cert.Gcn.biasRelu a' b' i := by
  obtain ⟨p, q, rfl⟩ : ∃ (p : Fin 5000) (q : Fin 128), j = ix2 p q := ⟨j 0, j 1, eq_ix2 j⟩
  rw [he]
  unfold Cert.Gcn.biasRelu
  rw [ha]
  exact congrArg (fun z => max (a' i + z) (Ideal.ofBits .f32 0x00000000#32)) hb

end Cert.KernelIdeal.Tile

end
-- ==== Proof.Activation1.lean ====
/-
  Layer 1's bias and positive part, from tiles to the whole array.

  The region runs over ten grid points; point t loads rows 5000·t … 5000·t + 4999 of the aggregated features and the
  bias as one 1×128 row, and writes back the same rows of max (a + b, 0). Each write-back is the restriction of ONE
  function of the two arrays as the region finds them, and the ten row blocks cover the 50000 rows, so the output
  array ends holding that function. The bias enters through its row: whatever vector b' the row's entry (0, q) reads
  at q.
-/
import proofs.«173898_j40140764348924_1_alg».proof.Proof.Gen.KernelIdeal.Frame
import proofs.«173898_j40140764348924_1_alg».proof.Proof.TileBiasRelu

set_option maxRecDepth 16384

noncomputable section

namespace Cert.KernelIdeal.Activation1

open Cert.KernelIdeal Cert.KernelIdeal.Gen Idealize.ShloMosaic Idealize.ShloMosaic.TcCoe Idealize.ShloMosaic.ValueIdx Idealize.SL.Sem
open Idealize.ShloMosaic.Pipeline (Dat)

-- the buffer contents when the region is entered
variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the input tile and the output tile are the same row block, all columns; the bias
    row is the one whole block. -/
theorem index_maps : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every row block is some point's. -/
theorem row_block_onto : ∀ q0 : Fin 10, ∃ t : Fin cfg1.N, win1_2.index t = ![q0.val, 0] :=
  (by decide +kernel : ∀ q0 : Fin 10, ∃ t : Fin grid1.N, win1_2.index t = ![q0.val, 0])

/-- What point t writes back is block t of the whole pass over the input array as the region finds it, with the bias
    the row holds. -/
theorem flushed (c : Dev nD) (b' : S128.Idx → EReal)
    (hrow : ∀ (y : S1x128.Idx) (q : S128.Idx), (y 1).val = (q 0).val → V c main_v41 y = b' q) (t : Fin cfg1.N) :
    (dat1 V c).flushed 2 t
      = ((cfg1.win 2).blk t).view.read (Elt Ideal) (Cert.Gcn.biasRelu (V c main_v40) b') := by
  show (cfg1.win 2).cut (grid1.coords t) ((dat1 V c).after 2 t) = _
  rw [after1_2]
  unfold out1_2
  rw [View.canon_unit_zero origin]
  simp only [View.ld_unit_zero (S := S5000x128) origin, View.ld_unit_zero (S := S1x128) origin]
  obtain ⟨e0, e1, e2, e3, e4, e5⟩ := index_maps t
  funext j
  show k1_pay1 (iblk1 V c 0 t) (iblk1 V c 1 t) j
    = Cert.Gcn.biasRelu (V c main_v40) b' (((cfg1.win 2).blk t).view.emb j)
  refine Tile.tile_is_biasRelu (k1_pay1 (F := Ideal)) Tile.pay1_apply _ _ _ _ j _ ?_ ?_
  · show V c main_v40 (((cfg1.win 0).blk t).view.emb j) = V c main_v40 (((cfg1.win 2).blk t).view.emb j)
    refine congrArg _ (funext fun a => Fin.ext ?_)
    match a with
    | ⟨0, _⟩ =>
      show win1_0.index t (0 : Fin 2) * 5000 + 1 * (j 0).val = win1_2.index t (0 : Fin 2) * 5000 + 1 * (j 0).val
      omega
    | ⟨1, _⟩ =>
      show win1_0.index t (1 : Fin 2) * 128 + 1 * (j 1).val = win1_2.index t (1 : Fin 2) * 128 + 1 * (j 1).val
      omega
  · show V c main_v41 (((cfg1.win 1).blk t).view.emb (ix2 (0 : Fin 1) (j 1)))
      = b' (ix1 ((((cfg1.win 2).blk t).view.emb j) 1))
    refine hrow _ _ ?_
    show win1_1.index t (1 : Fin 2) * 128 + 1 * (j 1).val = win1_2.index t (1 : Fin 2) * 128 + 1 * (j 1).val
    omega

/-- An index of the output array is in point t's block iff each coordinate is in the block's range on its axis. -/
theorem mem_block (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v42).slice (win1_2.rect t)).set ↔ _
  rw [View.set_slice_whole, Rect.mem_set_unit]
  exact Iff.rfl

/-- The row blocks cover the array: row r is in the block of the point whose index is r / 5000. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := row_block_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-- The output array after the region: max (a + b', 0) of the input array as entered, b' the bias the row holds. -/
theorem array (c : Dev nD) (b' : S128.Idx → EReal)
    (hrow : ∀ (y : S1x128.Idx) (q : S128.Idx), (y 1).val = (q 0).val → V c main_v41 y = b' q) :
    (dat1 V c).arrAt 2 cfg1.N = Cert.Gcn.biasRelu (V c main_v40) b' :=
  (dat1 V c).arrAt_eq_of_cover 2 _ (fun t _ => flushed V c b' hrow t) covered

end Cert.KernelIdeal.Activation1

end
-- ==== Proof.Activation2.lean ====
/-
  Layer 2's bias and positive part, from tiles to the whole array.

  The region runs over ten grid points; point t loads rows 5000·t … 5000·t + 4999 of the aggregated features and the
  bias as one 1×128 row, and writes back the same rows of max (a + b, 0). Each write-back is the restriction of ONE
  function of the two arrays as the region finds them, and the ten row blocks cover the 50000 rows, so the output
  array ends holding that function. The bias enters through its row: whatever vector b' the row's entry (0, q) reads
  at q.
-/
import proofs.«173898_j40140764348924_1_alg».proof.Proof.Gen.KernelIdeal.Frame
import proofs.«173898_j40140764348924_1_alg».proof.Proof.TileBiasRelu

set_option maxRecDepth 16384

noncomputable section

namespace Cert.KernelIdeal.Activation2

open Cert.KernelIdeal Cert.KernelIdeal.Gen Idealize.ShloMosaic Idealize.ShloMosaic.TcCoe Idealize.ShloMosaic.ValueIdx Idealize.SL.Sem
open Idealize.ShloMosaic.Pipeline (Dat)

-- the buffer contents when the region is entered
variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the input tile and the output tile are the same row block, all columns; the bias
    row is the one whole block. -/
theorem index_maps : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every row block is some point's. -/
theorem row_block_onto : ∀ q0 : Fin 10, ∃ t : Fin cfg3.N, win3_2.index t = ![q0.val, 0] :=
  (by decide +kernel : ∀ q0 : Fin 10, ∃ t : Fin grid3.N, win3_2.index t = ![q0.val, 0])

/-- What point t writes back is block t of the whole pass over the input array as the region finds it, with the bias
    the row holds. -/
theorem flushed (c : Dev nD) (b' : S128.Idx → EReal)
    (hrow : ∀ (y : S1x128.Idx) (q : S128.Idx), (y 1).val = (q 0).val → V c main_v57 y = b' q) (t : Fin cfg3.N) :
    (dat3 V c).flushed 2 t
      = ((cfg3.win 2).blk t).view.read (Elt Ideal) (Cert.Gcn.biasRelu (V c main_v56) b') := by
  show (cfg3.win 2).cut (grid3.coords t) ((dat3 V c).after 2 t) = _
  rw [after3_2]
  unfold out3_2
  rw [View.canon_unit_zero origin]
  simp only [View.ld_unit_zero (S := S5000x128) origin, View.ld_unit_zero (S := S1x128) origin]
  obtain ⟨e0, e1, e2, e3, e4, e5⟩ := index_maps t
  funext j
  show k3_pay1 (iblk3 V c 0 t) (iblk3 V c 1 t) j
    = Cert.Gcn.biasRelu (V c main_v56) b' (((cfg3.win 2).blk t).view.emb j)
  refine Tile.tile_is_biasRelu (k3_pay1 (F := Ideal)) Tile.pay3_apply _ _ _ _ j _ ?_ ?_
  · show V c main_v56 (((cfg3.win 0).blk t).view.emb j) = V c main_v56 (((cfg3.win 2).blk t).view.emb j)
    refine congrArg _ (funext fun a => Fin.ext ?_)
    match a with
    | ⟨0, _⟩ =>
      show win3_0.index t (0 : Fin 2) * 5000 + 1 * (j 0).val = win3_2.index t (0 : Fin 2) * 5000 + 1 * (j 0).val
      omega
    | ⟨1, _⟩ =>
      show win3_0.index t (1 : Fin 2) * 128 + 1 * (j 1).val = win3_2.index t (1 : Fin 2) * 128 + 1 * (j 1).val
      omega
  · show V c main_v57 (((cfg3.win 1).blk t).view.emb (ix2 (0 : Fin 1) (j 1)))
      = b' (ix1 ((((cfg3.win 2).blk t).view.emb j) 1))
    refine hrow _ _ ?_
    show win3_1.index t (1 : Fin 2) * 128 + 1 * (j 1).val = win3_2.index t (1 : Fin 2) * 128 + 1 * (j 1).val
    omega

/-- An index of the output array is in point t's block iff each coordinate is in the block's range on its axis. -/
theorem mem_block (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v58).slice (win3_2.rect t)).set ↔ _
  rw [View.set_slice_whole, Rect.mem_set_unit]
  exact Iff.rfl

/-- The row blocks cover the array: row r is in the block of the point whose index is r / 5000. -/
theorem covered (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := row_block_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_block]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 128 ≤ (i 1).val ∧ (i 1).val < win3_2.index t (1 : Fin 2) * 128 + 128
    omega

/-- The output array after the region: max (a + b', 0) of the input array as entered, b' the bias the row holds. -/
theorem array (c : Dev nD) (b' : S128.Idx → EReal)
    (hrow : ∀ (y : S1x128.Idx) (q : S128.Idx), (y 1).val = (q 0).val → V c main_v57 y = b' q) :
    (dat3 V c).arrAt 2 cfg3.N = Cert.Gcn.biasRelu (V c main_v56) b' :=
  (dat3 V c).arrAt_eq_of_cover 2 _ (fun t _ => flushed V c b' hrow t) covered

end Cert.KernelIdeal.Activation2

end
-- ==== Proof.Activation3.lean ====
/-
  Layer 3's bias and positive part, from tiles to the whole array.

  The region runs over ten grid points; point t loads rows 5000·t … 5000·t + 4999 of the aggregated features and the
  bias as one 1×128 row, and writes back the same rows of max (a + b, 0). Each write-back is the restriction of ONE
  function of the two arrays as the region finds them, and the ten row blocks cover the 50000 rows, so the output
  array ends holding that function. The bias enters through its row: whatever vector b' the row's entry (0, q) reads
  at q.
-/
import proofs.«173898_j40140764348924_1_alg».proof.Proof.Gen.KernelIdeal.Frame
import proofs.«173898_j40140764348924_1_alg».proof.Proof.TileBiasRelu

set_option maxRecDepth 16384

noncomputable section

namespace Cert.KernelIdeal.Activation3

open Cert.KernelIdeal Cert.KernelIdeal.Gen Idealize.ShloMosaic Idealize.ShloMosaic.TcCoe Idealize.ShloMosaic.ValueIdx Idealize.SL.Sem
open Idealize.ShloMosaic.Pipeline (Dat)

-- the buffer contents when the region is entered
variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the input tile and the output tile are the same row block, all columns; the bias
    row is the one whole block. -/
theorem index_maps : ∀ t : Fin cfg5.N, win5_0.index t (0 : Fin 2) = win5_2.index t (0 : Fin 2)
    ∧ win5_0.index t (1 : Fin 2) = 0 ∧ win5_1.index t (0 : Fin 2) = 0 ∧ win5_1.index t (1 : Fin 2) = 0
    ∧ win5_2.index t (1 : Fin 2) = 0 ∧ win5_2.index t (0 : Fin 2) ≤ 9 :=
  (by decide +kernel : ∀ t : Fin grid5.N, _)

/-- Every row block is some point's. -/
theorem row_block_onto : ∀ q0 : Fin 10, ∃ t : Fin cfg5.N, win5_2.index t = ![q0.val, 0] :=
  (by decide +kernel : ∀ q0 : Fin 10, ∃ t : Fin grid5.N, win5_2.index t = ![q0.val, 0])

/-- What point t writes back is block t of the whole pass over the input array as the region finds it, with the bias
    the row holds. -/
theorem flushed (c : Dev nD) (b' : S128.Idx → EReal)
    (hrow : ∀ (y : S1x128.Idx) (q : S128.Idx), (y 1).val = (q 0).val → V c main_v73 y = b' q) (t : Fin cfg5.N) :
    (dat5 V c).flushed 2 t
      = ((cfg5.win 2).blk t).view.read (Elt Ideal) (Cert.Gcn.biasRelu (V c main_v72) b') := by
  show (cfg5.win 2).cut (grid5.coords t) ((dat5 V c).after 2 t) = _
  rw [after5_2]
  unfold out5_2
  rw [View.canon_unit_zero origin]
  simp only [View.ld_unit_zero (S := S5000x128) origin, View.ld_unit_zero (S := S1x128) origin]
  obtain ⟨e0, e1, e2, e3, e4, e5⟩ := index_maps t
  funext j
  show k5_pay1 (iblk5 V c 0 t) (iblk5 V c 1 t) j
    = Cert.Gcn.biasRelu (V c main_v72) b' (((cfg5.win 2).blk t).view.emb j)
  refine Tile.tile_is_biasRelu (k5_pay1 (F := Ideal)) Tile.pay5_apply _ _ _ _ j _ ?_ ?_
  · show V c main_v72 (((cfg5.win 0).blk t).view.emb j) = V c main_v72 (((cfg5.win 2).blk t).view.emb j)
    refine congrArg _ (funext fun a => Fin.ext ?_)
    match a with
    | ⟨0, _⟩ =>
      show win5_0.index t (0 : Fin 2) * 5000 + 1 * (j 0).val = win5_2.index t (0 : Fin 2) * 5000 + 1 * (j 0).val
      omega
    | ⟨1, _⟩ =>
      show win5_0.index t (1 : Fin 2) * 128 + 1 * (j 1).val = win5_2.index t (1 : Fin 2) * 128 + 1 * (j 1).val
      omega
  · show V c main_v73 (((cfg5.win 1).blk t).view.emb (ix2 (0 : Fin 1) (j 1)))
      = b' (ix1 ((((cfg5.win 2).blk t).view.emb j) 1))
    refine hrow _ _ ?_
    show win5_1.index t (1 : Fin 2) * 128 + 1 * (j 1).val = win5_2.index t (1 : Fin 2) * 128 + 1 * (j 1).val
    omega

/-- An index of the output array is in point t's block iff each coordinate is in the block's range on its axis. -/
theorem mem_block (t : Fin cfg5.N) (i : S50000x128.Idx) :
    i ∈ ((cfg5.win 2).blk t).view.set ↔ ∀ a : Fin 2, win5_2.index t a * S5000x128.size a ≤ (i a).val
      ∧ (i a).val < win5_2.index t a * S5000x128.size a + S5000x128.size a := by
  show i ∈ ((View.whole main_v74).slice (win5_2.rect t)).set ↔ _
  rw [View.set_slice_whole, Rect.mem_set_unit]
  exact Iff.rfl

/-- The row blocks cover the array: row r is in the block of the point whose index is r / 5000. -/
theorem covered (i : S50000x128.Idx) :
    ∃ t : Fin cfg5.N, (cfg5.win 2).flush t = true ∧ i ∈ ((cfg5.win 2).blk t).view.set := by
  have hi0 : (i 0).val < 50000 := (i 0).isLt
  have hi1 : (i 1).val < 128 := (i 1).isLt
  obtain ⟨t, ht⟩ := row_block_onto ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_block]
  intro a
  match a with
  | ⟨0, _⟩ =>
    show win5_2.index t (0 : Fin 2) * 5000 ≤ (i 0).val ∧ (i 0).val < win5_2.index t (0 : Fin 2) * 5000 + 5000
    omega
  | ⟨1, _⟩ =>
    show win5_2.index t (1 : Fin 2) * 128 ≤ (i 1).val ∧ (i 1).val < win5_2.index t (1 : Fin 2) * 128 + 128
    omega

/-- The output array after the region: max (a + b', 0) of the input array as entered, b' the bias the row holds. -/
theorem array (c : Dev nD) (b' : S128.Idx → EReal)
    (hrow : ∀ (y : S1x128.Idx) (q : S128.Idx), (y 1).val = (q 0).val → V c main_v73 y = b' q) :
    (dat5 V c).arrAt 2 cfg5.N = Cert.Gcn.biasRelu (V c main_v72) b' :=
  (dat5 V c).arrAt_eq_of_cover 2 _ (fun t _ => flushed V c b' hrow t) covered

end Cert.KernelIdeal.Activation3

end
-- ==== Proof.ReferenceLayers.lean ====
/-
  The reference's layer pieces are the specification's.

  The reference computes each layer's matrix product as one contraction over the shared axis and each bias-and-
  positive-part as an addition of the spread bias followed by a maximum with zero. Read entry by entry these are the
  two whole-array functions of the specification, whatever arrays they are applied to.
-/
import proofs.«173898_j40140764348924_1_alg».proof.Proof.Gen.ReferenceIdeal.Read
import proofs.«173898_j40140764348924_1_alg».proof.Proof.Spec

noncomputable section

namespace Cert.ReferenceIdeal.Layers

open Cert.ReferenceIdeal Cert.ReferenceIdeal.Read Idealize.ShloMosaic Idealize.ShloMosaic.ValueIdx
open scoped BigOperators

/-- The host's contraction of a 50000×128 array with a 128×128 array is the specification's product. -/
theorem product_eq (h : (⟨S50000x128, .f32⟩ : BufTy).Contents (Elt Ideal)) (w : (⟨S128x128, .f32⟩ : BufTy).Contents (Elt Ideal)) :
    val_main_v27 (F := Ideal) h w = Cert.Gcn.matProd h w := by
  funext i
  rw [val_main_v27_apply]
  unfold Cert.Gcn.matProd
  refine Finset.sum_congr rfl fun k _ => ?_
  have el : lidx_main_v27 i k = ix2 (i 0) k := funext fun a => Fin.ext (by match a with | ⟨0, _⟩ => rfl | ⟨1, _⟩ => rfl)
  have er : ridx_main_v27 i k = ix2 k (i 1) := funext fun a => Fin.ext (by match a with | ⟨0, _⟩ => rfl | ⟨1, _⟩ => rfl)
  rw [el, er]
  rfl

/-- The second and third layers' products are the same contraction, applied to the previous layer's output. -/
theorem product2_eq (x0 : (⟨S50000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) :
    val_main_v45 (F := Ideal) x0 x1 x3 x4 x5 = Cert.Gcn.matProd (val_main_v44 (F := Ideal) x0 x1 x3 x4) x5 :=
  product_eq (val_main_v44 (F := Ideal) x0 x1 x3 x4) x5
theorem product3_eq (x0 : (⟨S50000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v63 (F := Ideal) x0 x1 x3 x4 x5 x6 x7 = Cert.Gcn.matProd (val_main_v62 (F := Ideal) x0 x1 x3 x4 x5 x6) x7 :=
  product_eq (val_main_v62 (F := Ideal) x0 x1 x3 x4 x5 x6) x7

/-- Layer 1's bias and positive part in the reference — the bias spread as a row and then over all rows, added, and the
    maximum with the zero splat — is the specification's pass over the aggregated features. -/
theorem activation1_eq (x0 : (⟨S50000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) :
    val_main_v44 (F := Ideal) x0 x1 x3 x4 = Cert.Gcn.biasRelu (val_main_v40 (F := Ideal) x0 x1 x3) x4 := by
  funext i
  rw [val_main_v44_apply, val_main_v43_apply, val_main_v42_apply, val_main_v41_apply, val_main_call0_v0_apply, val_main_call0_cst_apply]
  unfold Cert.Gcn.biasRelu
  have e : idx_main_v41 (idx_main_v42 i) = ix1 (i 1) :=
    funext fun a => Fin.ext (by match a with | ⟨0, _⟩ => rfl)
  rw [e]
  rfl

/-- Layer 2's bias and positive part in the reference — the bias spread as a row and then over all rows, added, and the
    maximum with the zero splat — is the specification's pass over the aggregated features. -/
theorem activation2_eq (x0 : (⟨S50000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v62 (F := Ideal) x0 x1 x3 x4 x5 x6 = Cert.Gcn.biasRelu (val_main_v58 (F := Ideal) x0 x1 x3 x4 x5) x6 := by
  funext i
  rw [val_main_v62_apply, val_main_v61_apply, val_main_v60_apply, val_main_v59_apply, val_main_call1_v0_apply, val_main_call1_cst_apply]
  unfold Cert.Gcn.biasRelu
  have e : idx_main_v59 (idx_main_v60 i) = ix1 (i 1) :=
    funext fun a => Fin.ext (by match a with | ⟨0, _⟩ => rfl)
  rw [e]
  rfl

/-- Layer 3's bias and positive part in the reference — the bias spread as a row and then over all rows, added, and the
    maximum with the zero splat — is the specification's pass over the aggregated features. -/
theorem activation3_eq (x0 : (⟨S50000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) :
    val_main_v80 (F := Ideal) x0 x1 x3 x4 x5 x6 x7 x8 = Cert.Gcn.biasRelu (val_main_v76 (F := Ideal) x0 x1 x3 x4 x5 x6 x7) x8 := by
  funext i
  rw [val_main_v80_apply, val_main_v79_apply, val_main_v78_apply, val_main_v77_apply, val_main_call2_v0_apply, val_main_call2_cst_apply]
  unfold Cert.Gcn.biasRelu
  have e : idx_main_v77 (idx_main_v78 i) = ix1 (i 1) :=
    funext fun a => Fin.ext (by match a with | ⟨0, _⟩ => rfl)
  rw [e]
  rfl

end Cert.ReferenceIdeal.Layers

end
-- ==== Proof.Walk.lean ====
/-
  From the launch memory to the result: the kernel's boundaries are the reference's stages.

  The kernel's @main and the reference's apply the same host operations in the same order; they differ only in that
  the kernel computes each layer's matrix product and each bias-and-positive-part in a tiled region. Walking the
  kernel's segment boundaries in order, every buffer a later segment reads holds the reference's stage function of
  the launch arguments: a host stretch by reading its operations off (they are the reference's own operations of
  buffers already identified), a region by its whole-array function (the specification's, which the reference's
  contraction, respectively its add-and-maximum, is as well). At the last boundary the result buffer holds the
  reference's result function of the arguments.
-/
import proofs.«173898_j40140764348924_1_alg».proof.Proof.Gen.KernelIdeal.Frame
import proofs.«173898_j40140764348924_1_alg».proof.Proof.Gen.ReferenceIdeal.Read
import proofs.«173898_j40140764348924_1_alg».proof.Proof.Keeps
import proofs.«173898_j40140764348924_1_alg».proof.Proof.Product1
import proofs.«173898_j40140764348924_1_alg».proof.Proof.Product2
import proofs.«173898_j40140764348924_1_alg».proof.Proof.Product3
import proofs.«173898_j40140764348924_1_alg».proof.Proof.Activation1
import proofs.«173898_j40140764348924_1_alg».proof.Proof.Activation2
import proofs.«173898_j40140764348924_1_alg».proof.Proof.Activation3
import proofs.«173898_j40140764348924_1_alg».proof.Proof.ReferenceLayers
import Idealize.ShloMosaic.Lib.Pipeline.Value

set_option maxRecDepth 16384

noncomputable section

namespace Cert.KernelIdeal.Walk

open Cert.KernelIdeal Cert.KernelIdeal.Gen Idealize.ShloMosaic Idealize.ShloMosaic.TcCoe Idealize.ShloMosaic.ValueIdx Idealize.SL.Sem
open Cert.ReferenceIdeal.Read (val_main_v3 val_main_v6 val_main_v26 val_main_v27 val_main_v40 val_main_v44 val_main_v45
  val_main_v58 val_main_v62 val_main_v63 val_main_v76 val_main_v80 val_main_v96)

variable (m : (ℓ : Loc nD τ sig) → Buf (Elt Ideal) ℓ) (ρ : Dev nD → PrngReg) (c : Dev nD)

/-! ## Before the first region: the edge list's three arrays -/

set_option maxHeartbeats 4000000 in
/-- The source indices (the edge list's first row, then every node once for its self loop). -/
theorem src_at_1 : W1 m ρ c (Proc.devRef .tc main_v3) = val_main_v3 (F := Ideal) (m ((c : Thread nD τ).loc main_arg1)) := by
  show StableHlo.after hostOps0 (W0 m ρ c) (Proc.devRef .tc main_v3) = _
  after_results_simp
  rfl

set_option maxHeartbeats 4000000 in
/-- The destination indices. -/
theorem dst_at_1 : W1 m ρ c (Proc.devRef .tc main_v6) = val_main_v6 (F := Ideal) (m ((c : Thread nD τ).loc main_arg1)) := by
  show StableHlo.after hostOps0 (W0 m ρ c) (Proc.devRef .tc main_v6) = _
  after_results_simp
  rfl

set_option maxHeartbeats 4000000 in
/-- The per-edge normaliser: the inverse square roots of the two endpoints' degrees, multiplied. -/
theorem nrm_at_1 : W1 m ρ c (Proc.devRef .tc main_v26) = val_main_v26 (F := Ideal) (m ((c : Thread nD τ).loc main_arg1)) := by
  show StableHlo.after hostOps0 (W0 m ρ c) (Proc.devRef .tc main_v26) = _
  after_results_simp
  rfl

theorem src_at_2 : W2 m ρ c (Proc.devRef .tc main_v3) = val_main_v3 (F := Ideal) (m ((c : Thread nD τ).loc main_arg1)) :=
  (Keeps.src_2_1 m ρ c).trans (src_at_1 m ρ c)
theorem src_at_5 : W5 m ρ c (Proc.devRef .tc main_v3) = val_main_v3 (F := Ideal) (m ((c : Thread nD τ).loc main_arg1)) :=
  (Keeps.src_5_2 m ρ c).trans (src_at_2 m ρ c)
theorem src_at_8 : W8 m ρ c (Proc.devRef .tc main_v3) = val_main_v3 (F := Ideal) (m ((c : Thread nD τ).loc main_arg1)) :=
  (Keeps.src_8_5 m ρ c).trans (src_at_5 m ρ c)
theorem dst_at_2 : W2 m ρ c (Proc.devRef .tc main_v6) = val_main_v6 (F := Ideal) (m ((c : Thread nD τ).loc main_arg1)) :=
  (Keeps.dst_2_1 m ρ c).trans (dst_at_1 m ρ c)
theorem dst_at_5 : W5 m ρ c (Proc.devRef .tc main_v6) = val_main_v6 (F := Ideal) (m ((c : Thread nD τ).loc main_arg1)) :=
  (Keeps.dst_5_2 m ρ c).trans (dst_at_2 m ρ c)
theorem dst_at_8 : W8 m ρ c (Proc.devRef .tc main_v6) = val_main_v6 (F := Ideal) (m ((c : Thread nD τ).loc main_arg1)) :=
  (Keeps.dst_8_5 m ρ c).trans (dst_at_5 m ρ c)
theorem nrm_at_2 : W2 m ρ c (Proc.devRef .tc main_v26) = val_main_v26 (F := Ideal) (m ((c : Thread nD τ).loc main_arg1)) :=
  (Keeps.nrm_2_1 m ρ c).trans (nrm_at_1 m ρ c)
theorem nrm_at_5 : W5 m ρ c (Proc.devRef .tc main_v26) = val_main_v26 (F := Ideal) (m ((c : Thread nD τ).loc main_arg1)) :=
  (Keeps.nrm_5_2 m ρ c).trans (nrm_at_2 m ρ c)
theorem nrm_at_8 : W8 m ρ c (Proc.devRef .tc main_v26) = val_main_v26 (F := Ideal) (m ((c : Thread nD τ).loc main_arg1)) :=
  (Keeps.nrm_8_5 m ρ c).trans (nrm_at_5 m ρ c)

/-! ## Layer 1 -/

/-- Layer 1's product array when its region is left: the reference's stage. -/
theorem prod1_at_2 : W2 m ρ c (Proc.devRef .tc main_v27) = val_main_v27 (F := Ideal) (m ((c : Thread nD τ).loc main_arg0)) (m ((c : Thread nD τ).loc main_arg3)) := by
  refine (W2_arr m ρ c 2).trans ((Product1.array (V1 m ρ) c).trans ?_)
  rw [Cert.ReferenceIdeal.Layers.product_eq]
  show Cert.Gcn.matProd (W1 m ρ c (Proc.devRef .tc main_arg0)) (W1 m ρ c (Proc.devRef .tc main_arg3)) = _
  rw [Keeps.arg0_at_1 m ρ c, Keeps.arg3_at_1 m ρ c]

set_option maxHeartbeats 4000000 in
/-- Layer 1's neighbourhood sum: rows gathered along the edges, scaled by the normaliser, scatter-added at the destinations. -/
theorem agg1_at_3 : W3 m ρ c (Proc.devRef .tc main_v40) = val_main_v40 (F := Ideal) (m ((c : Thread nD τ).loc main_arg0)) (m ((c : Thread nD τ).loc main_arg1)) (m ((c : Thread nD τ).loc main_arg3)) := by
  show StableHlo.after hostOps1 (W2 m ρ c) (Proc.devRef .tc main_v40) = _
  after_results_simp
  rw [prod1_at_2 m ρ c, src_at_2 m ρ c, dst_at_2 m ρ c, nrm_at_2 m ρ c]
  rfl

/-- Layer 1's bias as the one row the region loads: the row's entry (0, q) is the bias at q. -/
theorem bias1_row : ∀ (y : S1x128.Idx) (q : S128.Idx), (y 1).val = (q 0).val → V3 m ρ c main_v41 y = (m ((c : Thread nD τ).loc main_arg4)) q := by
  intro y q h
  have e : W3 m ρ c (Proc.devRef .tc main_v41) = shapeCast S1x128 (m ((c : Thread nD τ).loc main_arg4)) shapeCasts_S128_S1x128 := by
    show StableHlo.after hostOps1 (W2 m ρ c) (Proc.devRef .tc main_v41) = _
    after_results_simp
    rw [Keeps.arg4_at_2 m ρ c]
    rfl
  show W3 m ρ c (Proc.devRef .tc main_v41) y = _
  rw [e]
  have hy : (y 0).val < 1 := (y 0).isLt
  exact shapeCast_apply _ _ y q (by
    rw [Shape.rowMajor_val_one, Shape.rowMajor_val_two]
    show (q 0).val = (y 0).val * 128 + (y 1).val
    omega)

/-- Layer 1's output array when its bias-and-positive-part region is left: the reference's stage. -/
theorem act1_at_4 : W4 m ρ c (Proc.devRef .tc main_v42) = val_main_v44 (F := Ideal) (m ((c : Thread nD τ).loc main_arg0)) (m ((c : Thread nD τ).loc main_arg1)) (m ((c : Thread nD τ).loc main_arg3)) (m ((c : Thread nD τ).loc main_arg4)) := by
  refine (W4_arr m ρ c 2).trans ((Activation1.array (V3 m ρ) c (m ((c : Thread nD τ).loc main_arg4)) (bias1_row m ρ c)).trans ?_)
  rw [Cert.ReferenceIdeal.Layers.activation1_eq]
  show Cert.Gcn.biasRelu (W3 m ρ c (Proc.devRef .tc main_v40)) _ = _
  rw [agg1_at_3 m ρ c]

/-! ## Layer 2 -/

/-- Layer 2's product array when its region is left: the reference's stage. -/
theorem prod2_at_5 : W5 m ρ c (Proc.devRef .tc main_v43) = val_main_v45 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W5_arr m ρ c 2).trans ((Product2.array (V4 m ρ) c).trans ?_)
  rw [Cert.ReferenceIdeal.Layers.product2_eq]
  show Cert.Gcn.matProd (W4 m ρ c (Proc.devRef .tc main_v42)) (W4 m ρ c (Proc.devRef .tc main_arg5)) = _
  rw [act1_at_4 m ρ c, Keeps.arg5_at_4 m ρ c]

set_option maxHeartbeats 4000000 in
/-- Layer 2's neighbourhood sum. -/
theorem agg2_at_6 : W6 m ρ c (Proc.devRef .tc main_v56) = val_main_v58 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps3 (W5 m ρ c) (Proc.devRef .tc main_v56) = _
  after_results_simp
  rw [prod2_at_5 m ρ c, src_at_5 m ρ c, dst_at_5 m ρ c, nrm_at_5 m ρ c]
  rfl

/-- Layer 2's bias as the one row the region loads: the row's entry (0, q) is the bias at q. -/
theorem bias2_row : ∀ (y : S1x128.Idx) (q : S128.Idx), (y 1).val = (q 0).val → V6 m ρ c main_v57 y = (m ((c : Thread nD τ).loc main_arg6)) q := by
  intro y q h
  have e : W6 m ρ c (Proc.devRef .tc main_v57) = shapeCast S1x128 (m ((c : Thread nD τ).loc main_arg6)) shapeCasts_S128_S1x128 := by
    show StableHlo.after hostOps3 (W5 m ρ c) (Proc.devRef .tc main_v57) = _
    after_results_simp
    rw [Keeps.arg6_at_5 m ρ c]
    rfl
  show W6 m ρ c (Proc.devRef .tc main_v57) y = _
  rw [e]
  have hy : (y 0).val < 1 := (y 0).isLt
  exact shapeCast_apply _ _ y q (by
    rw [Shape.rowMajor_val_one, Shape.rowMajor_val_two]
    show (q 0).val = (y 0).val * 128 + (y 1).val
    omega)

/-- Layer 2's output array when its bias-and-positive-part region is left: the reference's stage. -/
theorem act2_at_7 : W7 m ρ c (Proc.devRef .tc main_v58) = val_main_v62 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W7_arr m ρ c 2).trans ((Activation2.array (V6 m ρ) c (m ((c : Thread nD τ).loc main_arg6)) (bias2_row m ρ c)).trans ?_)
  rw [Cert.ReferenceIdeal.Layers.activation2_eq]
  show Cert.Gcn.biasRelu (W6 m ρ c (Proc.devRef .tc main_v56)) _ = _
  rw [agg2_at_6 m ρ c]

/-! ## Layer 3 -/

/-- Layer 3's product array when its region is left: the reference's stage. -/
theorem prod3_at_8 : W8 m ρ c (Proc.devRef .tc main_v59) = val_main_v63 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 2).trans ((Product3.array (V7 m ρ) c).trans ?_)
  rw [Cert.ReferenceIdeal.Layers.product3_eq]
  show Cert.Gcn.matProd (W7 m ρ c (Proc.devRef .tc main_v58)) (W7 m ρ c (Proc.devRef .tc main_arg7)) = _
  rw [act2_at_7 m ρ c, Keeps.arg7_at_7 m ρ c]

set_option maxHeartbeats 4000000 in
/-- Layer 3's neighbourhood sum. -/
theorem agg3_at_9 : W9 m ρ c (Proc.devRef .tc main_v72) = val_main_v76 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps5 (W8 m ρ c) (Proc.devRef .tc main_v72) = _
  after_results_simp
  rw [prod3_at_8 m ρ c, src_at_8 m ρ c, dst_at_8 m ρ c, nrm_at_8 m ρ c]
  rfl

/-- Layer 3's bias as the one row the region loads: the row's entry (0, q) is the bias at q. -/
theorem bias3_row : ∀ (y : S1x128.Idx) (q : S128.Idx), (y 1).val = (q 0).val → V9 m ρ c main_v73 y = (m ((c : Thread nD τ).loc main_arg8)) q := by
  intro y q h
  have e : W9 m ρ c (Proc.devRef .tc main_v73) = shapeCast S1x128 (m ((c : Thread nD τ).loc main_arg8)) shapeCasts_S128_S1x128 := by
    show StableHlo.after hostOps5 (W8 m ρ c) (Proc.devRef .tc main_v73) = _
    after_results_simp
    rw [Keeps.arg8_at_8 m ρ c]
    rfl
  show W9 m ρ c (Proc.devRef .tc main_v73) y = _
  rw [e]
  have hy : (y 0).val < 1 := (y 0).isLt
  exact shapeCast_apply _ _ y q (by
    rw [Shape.rowMajor_val_one, Shape.rowMajor_val_two]
    show (q 0).val = (y 0).val * 128 + (y 1).val
    omega)

/-- Layer 3's output array when its bias-and-positive-part region is left: the reference's stage. -/
theorem act3_at_10 : W10 m ρ c (Proc.devRef .tc main_v74) = val_main_v80 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 2).trans ((Activation3.array (V9 m ρ) c (m ((c : Thread nD τ).loc main_arg8)) (bias3_row m ρ c)).trans ?_)
  rw [Cert.ReferenceIdeal.Layers.activation3_eq]
  show Cert.Gcn.biasRelu (W9 m ρ c (Proc.devRef .tc main_v72)) _ = _
  rw [agg3_at_9 m ρ c]

/-! ## The tail: mean pooling per graph and the final linear map -/

set_option maxHeartbeats 4000000 in
/-- The result buffer at the last boundary: the reference's result function of the launch arguments. -/
theorem result_at_11 : W11 m ρ c (Proc.devRef .tc main_v90) = val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps6 (W10 m ρ c) (Proc.devRef .tc main_v90) = _
  after_results_simp
  rw [act3_at_10 m ρ c, Keeps.arg2_at_10 m ρ c, Keeps.arg9_at_10 m ρ c, Keeps.arg10_at_10 m ρ c]
  rfl

end Cert.KernelIdeal.Walk

end
-- ==== Proof.lean ====
/-
  A three-layer graph-convolution network with mean pooling and a linear head: the tiled kernel against its reference.

  Both programs compute, from node features x, an edge list, a node-to-graph assignment and the weights,
      pool (L₃ (L₂ (L₁ x))) · W_lin + b_lin,      L_k h = relu (Â (h · W_k) + b_k),
  where Â is the self-looped, symmetrically normalised adjacency (a gather along the edges, a scaling by the product
  of the endpoints' inverse square-root degrees, a scatter-add at the destinations) and pool is the per-graph mean.
  The reference does every step as one host operation. The kernel does the same host operations in the same order,
  except that each product h · W_k and each relu (· + b_k) is a tiled region over ten blocks of 5000 rows, the
  product's operands narrowed to bf16 on the way (the identity on the extended reals) and accumulated from zero.

  On the extended reals the two programs are therefore the same function of the arguments, operation by operation;
  no algebraic law beyond "a tile of the product is the product's tile" is used, and the finiteness of the inputs is
  never opened. The proof: the kernel's run names its result at the last segment boundary's contents (KernelRun);
  each region's output array is one whole-array function (Product1–3, Activation1–3, over the tiles' entry formulas
  in TileProduct and TileBiasRelu), which the reference's contraction and add-and-maximum are as well
  (ReferenceLayers, against Spec); buffers nothing writes are carried across the boundaries (Keeps); and boundary by
  boundary the kernel's buffers are the reference's stage functions of the launch arguments (Walk). The idealization
  ledger is empty, so the kernel's idealized text is its own text read on the extended reals.
-/
import proofs.«173898_j40140764348924_1_alg».proof.Defs
import proofs.«173898_j40140764348924_1_alg».proof.Proof.Gen.Kernel
import proofs.«173898_j40140764348924_1_alg».proof.Proof.Gen.Kernel.Skeleton
import proofs.«173898_j40140764348924_1_alg».proof.Proof.Gen.Kernel.Launch
import proofs.«173898_j40140764348924_1_alg».proof.Proof.Gen.Kernel.Points
import proofs.«173898_j40140764348924_1_alg».proof.Proof.Gen.Kernel.Frame
import proofs.«173898_j40140764348924_1_alg».proof.Proof.Gen.KernelIdeal
import proofs.«173898_j40140764348924_1_alg».proof.Proof.Gen.KernelIdeal.Skeleton
import proofs.«173898_j40140764348924_1_alg».proof.Proof.Gen.KernelIdeal.Launch
import proofs.«173898_j40140764348924_1_alg».proof.Proof.Gen.KernelIdeal.Points
import proofs.«173898_j40140764348924_1_alg».proof.Proof.Gen.KernelIdeal.Frame
import proofs.«173898_j40140764348924_1_alg».proof.Proof.Gen.ReferenceIdeal
import proofs.«173898_j40140764348924_1_alg».proof.Proof.Gen.ReferenceIdeal.Run
import proofs.«173898_j40140764348924_1_alg».proof.Proof.Gen.ReferenceIdeal.Read
import proofs.«173898_j40140764348924_1_alg».proof.Proof.Gen.Pre_finite_inputs
import proofs.«173898_j40140764348924_1_alg».proof.Proof.KernelRun
import proofs.«173898_j40140764348924_1_alg».proof.Proof.Walk
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the reference's result function of the
    arguments in their result buffers: the kernel by the walk along its segment boundaries, the reference by its
    run. -/
theorem algebraic : Cert.algebraic_KernelIdeal_ReferenceIdeal := by
  intro m ρ m' ρ' _ hagree
  refine ⟨fun c => Cert.KernelIdeal.Gen.W11 m ρ c (Proc.devRef .tc Cert.KernelIdeal.main_v90),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  show Cert.ReferenceIdeal.Value.res_main_v96 m' c
    = Cert.KernelIdeal.Gen.W11 m ρ c (Proc.devRef .tc Cert.KernelIdeal.main_v90)
  rw [Cert.ReferenceIdeal.Read.val_main_v96_eq, Cert.KernelIdeal.Walk.result_at_11 m ρ c,
    h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
